-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x10000000 : Shape := ⟨2, ![2, 10000000]⟩
abbrev S2x8 : Shape := ⟨2, ![2, 8]⟩
abbrev S8 : Shape := ⟨1, ![8]⟩
abbrev S8x2 : Shape := ⟨2, ![8, 2]⟩
abbrev S2 : Shape := ⟨1, ![2]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8 : S_.BroadcastsInDim S8 (![] : Fin 0 → Fin S8.rank)
  reducesTo_S8_S_d0 : S8.ReducesTo [0] S_
  bcast_S_S8x2 : S_.BroadcastsInDim S8x2 (![] : Fin 0 → Fin S8x2.rank)
  reducesTo_S8x2_S_d0_1 : S8x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S8x2 1) : IVec S_ 1 :=
  let main_c_5 : IVec S_ 1 := constantI S_ 1 1#1
  let main_v17 : IVec S_ 1 := (fun x v => Host.reduce IntOp.andi x v reducesTo_S8x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S1000000x2 .f32) (main_arg1 : IVec S2x10000000 32) (main_arg2 : FVec F S2x8 .f32) (main_arg3 : FVec F S8 .f32) (main_arg4 : FVec F S8x2 .f32) (main_arg5 : FVec F S2 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S2x8 .f32 := Host.absf main_arg2
  let main_cst_0 : FVec F S_ .f32 := constant S_ .f32 0x7F800000#32
  let main_v5 : FVec F S2x8 .f32 := broadcastInDim S2x8 ![] bcast_S_S2x8 main_cst_0
  let main_v6 : IVec S2x8 1 := cmpf .olt main_v4 main_v5
  let main_c_1 : IVec S_ 1 := constantI S_ 1 1#1
  let main_v7 : IVec S_ 1 := (fun x v => Host.reduce IntOp.andi x v reducesTo_S2x8_S_d0_1 h_S_) main_v6 main_c_1
  let main_v8 : IVec S_ 1 := andi main_v3 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8x2 .f32 := Host.absf main_arg4
  let main_cst_4 : FVec F S_ .f32 := constant S_ .f32 0x7F800000#32
  let main_v15 : FVec F S8x2 .f32 := broadcastInDim S8x2 ![] bcast_S_S8x2 main_cst_4
  let main_v16 : IVec S8x2 1 := cmpf .olt main_v14 main_v15
  fn_part1 (F := F) main_arg5 main_v13 main_v16
-- ==== Kernel.lean ====
abbrev S1000000x2 : Shape := ⟨2, ![1000000, 2]⟩
abbrev S2x10000000 : Shape := ⟨2, ![2, 10000000]⟩
abbrev S2x8 : Shape := ⟨2, ![2, 8]⟩
abbrev S8 : Shape := ⟨1, ![8]⟩
abbrev S8x2 : Shape := ⟨2, ![8, 2]⟩
abbrev S2 : Shape := ⟨1, ![2]⟩
abbrev S1000000 : Shape := ⟨1, ![1000000]⟩
abbrev S1x10000000 : Shape := ⟨2, ![1, 10000000]⟩
abbrev S10000000 : Shape := ⟨1, ![10000000]⟩
abbrev S11000000 : Shape := ⟨1, ![11000000]⟩
abbrev S_ : Shape := ⟨0, ![]⟩
abbrev S11000000x1 : Shape := ⟨2, ![11000000, 1]⟩
abbrev S1000000x8 : Shape := ⟨2, ![1000000, 8]⟩
abbrev S5000x2 : Shape := ⟨2, ![5000, 2]⟩
abbrev S5000x8 : Shape := ⟨2, ![5000, 8]⟩
abbrev S11000000x8 : Shape := ⟨2, ![11000000, 8]⟩
abbrev S5000x1 : Shape := ⟨2, ![5000, 1]⟩
abbrev S1x8 : Shape := ⟨2, ![1, 8]⟩
abbrev S11000000x2 : Shape := ⟨2, ![11000000, 2]⟩
abbrev S1x2 : Shape := ⟨2, ![1, 2]⟩

abbrev nBuf : Space → Nat
  | .hbm => 81
  | .vmem => 32
  | .smem => 0
  | _ => 0

abbrev bufTy : (tb : Table) → Fin (tcTables nBuf tb) → BufTy
  | .hbm, ⟨0, _⟩ => ⟨S1000000x2, .f32⟩
  | .hbm, ⟨1, _⟩ => ⟨S2x10000000, .i32⟩
  | .hbm, ⟨2, _⟩ => ⟨S2x8, .f32⟩
  | .hbm, ⟨3, _⟩ => ⟨S8, .f32⟩
  | .hbm, ⟨4, _⟩ => ⟨S8x2, .f32⟩
  | .hbm, ⟨5, _⟩ => ⟨S2, .f32⟩
  | .hbm, ⟨6, _⟩ => ⟨S1000000, .i32⟩
  | .hbm, ⟨7, _⟩ => ⟨S1x10000000, .i32⟩
  | .hbm, ⟨8, _⟩ => ⟨S10000000, .i32⟩
  | .hbm, ⟨9, _⟩ => ⟨S11000000, .i32⟩
  | .hbm, ⟨10, _⟩ => ⟨S1x10000000, .i32⟩
  | .hbm, ⟨11, _⟩ => ⟨S10000000, .i32⟩
  | .hbm, ⟨12, _⟩ => ⟨S11000000, .i32⟩
  | .hbm, ⟨13, _⟩ => ⟨S_, .f32⟩
  | .hbm, ⟨14, _⟩ => ⟨S11000000, .f32⟩
  | .hbm, ⟨15, _⟩ => ⟨S_, .f32⟩
  | .hbm, ⟨16, _⟩ => ⟨S1000000, .f32⟩
  | .hbm, ⟨17, _⟩ => ⟨S11000000x1, .i32⟩
  | .hbm, ⟨18, _⟩ => ⟨S1000000, .f32⟩
  | .hbm, ⟨19, _⟩ => ⟨S_, .f32⟩
  | .hbm, ⟨20, _⟩ => ⟨S1000000, .f32⟩
  | .hbm, ⟨21, _⟩ => ⟨S1000000, .i1⟩
  | .hbm, ⟨22, _⟩ => ⟨S1000000, .f32⟩
  | .hbm, ⟨23, _⟩ => ⟨S_, .f32⟩
  | .hbm, ⟨24, _⟩ => ⟨S_, .f32⟩
  | .hbm, ⟨25, _⟩ => ⟨S1000000, .f32⟩
  | .hbm, ⟨26, _⟩ => ⟨S1000000, .f32⟩
  | .hbm, ⟨27, _⟩ => ⟨S_, .i32⟩
  | .hbm, ⟨28, _⟩ => ⟨S11000000, .i32⟩
  | .hbm, ⟨29, _⟩ => ⟨S11000000, .i1⟩
  | .hbm, ⟨30, _⟩ => ⟨S_, .i32⟩
  | .hbm, ⟨31, _⟩ => ⟨S11000000, .i32⟩
  | .hbm, ⟨32, _⟩ => ⟨S11000000, .i32⟩
  | .hbm, ⟨33, _⟩ => ⟨S11000000, .i32⟩
  | .hbm, ⟨34, _⟩ => ⟨S11000000x1, .i32⟩
  | .hbm, ⟨35, _⟩ => ⟨S11000000, .f32⟩
  | .hbm, ⟨36, _⟩ => ⟨S_, .i32⟩
  | .hbm, ⟨37, _⟩ => ⟨S11000000, .i32⟩
  | .hbm, ⟨38, _⟩ => ⟨S11000000, .i1⟩
  | .hbm, ⟨39, _⟩ => ⟨S_, .i32⟩
  | .hbm, ⟨40, _⟩ => ⟨S11000000, .i32⟩
  | .hbm, ⟨41, _⟩ => ⟨S11000000, .i32⟩
  | .hbm, ⟨42, _⟩ => ⟨S11000000, .i32⟩
  | .hbm, ⟨43, _⟩ => ⟨S11000000x1, .i32⟩
  | .hbm, ⟨44, _⟩ => ⟨S11000000, .f32⟩
  | .hbm, ⟨45, _⟩ => ⟨S11000000, .f32⟩
  | .hbm, ⟨46, _⟩ => ⟨S11000000x1, .f32⟩
  | .hbm, ⟨47, _⟩ => ⟨S1000000x8, .f32⟩
  | .hbm, ⟨48, _⟩ => ⟨S_, .i32⟩
  | .hbm, ⟨49, _⟩ => ⟨S11000000, .i32⟩
  | .hbm, ⟨50, _⟩ => ⟨S11000000, .i1⟩
  | .hbm, ⟨51, _⟩ => ⟨S_, .i32⟩
  | .hbm, ⟨52, _⟩ => ⟨S11000000, .i32⟩
  | .hbm, ⟨53, _⟩ => ⟨S11000000, .i32⟩
  | .hbm, ⟨54, _⟩ => ⟨S11000000, .i32⟩
  | .hbm, ⟨55, _⟩ => ⟨S11000000x1, .i32⟩
  | .hbm, ⟨56, _⟩ => ⟨S11000000x8, .f32⟩
  | .hbm, ⟨57, _⟩ => ⟨S11000000x8, .f32⟩
  | .hbm, ⟨58, _⟩ => ⟨S_, .f32⟩
  | .hbm, ⟨59, _⟩ => ⟨S1000000x8, .f32⟩
  | .hbm, ⟨60, _⟩ => ⟨S11000000x1, .i32⟩
  | .hbm, ⟨61, _⟩ => ⟨S1000000x8, .f32⟩
  | .hbm, ⟨62, _⟩ => ⟨S1x8, .f32⟩
  | .hbm, ⟨63, _⟩ => ⟨S1000000x8, .f32⟩
  | .hbm, ⟨64, _⟩ => ⟨S1000000x2, .f32⟩
  | .hbm, ⟨65, _⟩ => ⟨S_, .i32⟩
  | .hbm, ⟨66, _⟩ => ⟨S11000000, .i32⟩
  | .hbm, ⟨67, _⟩ => ⟨S11000000, .i1⟩
  | .hbm, ⟨68, _⟩ => ⟨S_, .i32⟩
  | .hbm, ⟨69, _⟩ => ⟨S11000000, .i32⟩
  | .hbm, ⟨70, _⟩ => ⟨S11000000, .i32⟩
  | .hbm, ⟨71, _⟩ => ⟨S11000000, .i32⟩
  | .hbm, ⟨72, _⟩ => ⟨S11000000x1, .i32⟩
  | .hbm, ⟨73, _⟩ => ⟨S11000000x2, .f32⟩
  | .hbm, ⟨74, _⟩ => ⟨S11000000x2, .f32⟩
  | .hbm, ⟨75, _⟩ => ⟨S_, .f32⟩
  | .hbm, ⟨76, _⟩ => ⟨S1000000x2, .f32⟩
  | .hbm, ⟨77, _⟩ => ⟨S11000000x1, .i32⟩
  | .hbm, ⟨78, _⟩ => ⟨S1000000x2, .f32⟩
  | .hbm, ⟨79, _⟩ => ⟨S1x2, .f32⟩
  | .hbm, ⟨80, _⟩ => ⟨S1000000x2, .f32⟩
  | .local _ .vmem, ⟨0, _⟩ => ⟨S5000x2, .f32⟩
  | .local _ .vmem, ⟨1, _⟩ => ⟨S5000x2, .f32⟩
  | .local _ .vmem, ⟨2, _⟩ => ⟨S2x8, .f32⟩
  | .local _ .vmem, ⟨3, _⟩ => ⟨S5000x8, .f32⟩
  | .local _ .vmem, ⟨4, _⟩ => ⟨S5000x8, .f32⟩
  | .local _ .vmem, ⟨5, _⟩ => ⟨S5000x8, .f32⟩
  | .local _ .vmem, ⟨6, _⟩ => ⟨S5000x8, .f32⟩
  | .local _ .vmem, ⟨7, _⟩ => ⟨S5000x1, .f32⟩
  | .local _ .vmem, ⟨8, _⟩ => ⟨S5000x1, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S5000x8, .f32⟩
  | .local _ .vmem, ⟨13, _⟩ => ⟨S1x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S5000x8, .f32⟩
  | .local _ .vmem, ⟨18, _⟩ => ⟨S8x2, .f32⟩
  | .local _ .vmem, ⟨19, _⟩ => ⟨S5000x2, .f32⟩
  | .local _ .vmem, ⟨20, _⟩ => ⟨S5000x2, .f32⟩
  | .local _ .vmem, ⟨21, _⟩ => ⟨S5000x2, .f32⟩
  | .local _ .vmem, ⟨22, _⟩ => ⟨S5000x2, .f32⟩
  | .local _ .vmem, ⟨23, _⟩ => ⟨S5000x1, .f32⟩
  | .local _ .vmem, ⟨24, _⟩ => ⟨S5000x1, .f32⟩
  | .local _ .vmem, ⟨25, _⟩ => ⟨S5000x2, .f32⟩
  | .local _ .vmem, ⟨26, _⟩ => ⟨S5000x2, .f32⟩
  | .local _ .vmem, ⟨27, _⟩ => ⟨S5000x2, .f32⟩
  | .local _ .vmem, ⟨28, _⟩ => ⟨S5000x2, .f32⟩
  | .local _ .vmem, ⟨29, _⟩ => ⟨S1x2, .f32⟩
  | .local _ .vmem, ⟨30, _⟩ => ⟨S5000x2, .f32⟩
  | .local _ .vmem, ⟨31, _⟩ => ⟨S5000x2, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x8 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![2200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![200], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x10000000_S1x10000000_0_0 : S2x10000000.Slices ![0, 0] S1x10000000
  shapeCasts_S1x10000000_S10000000 : S1x10000000.ShapeCasts S10000000
  concatenates_S10000000_S1000000_S11000000_d0 : Shape.Concatenates [S10000000, S1000000] S11000000 0
  slices_S2x10000000_S1x10000000_1_0 : S2x10000000.Slices ![1, 0] S1x10000000
  bcast_S_S11000000 : S_.BroadcastsInDim S11000000 (![] : Fin 0 → Fin S11000000.rank)
  bcast_S_S1000000 : S_.BroadcastsInDim S1000000 (![] : Fin 0 → Fin S1000000.rank)
  bcast_S11000000_S11000000x1_0 : S11000000.BroadcastsInDim S11000000x1 (![0] : Fin 1 → Fin S11000000x1.rank)
  shapeCasts_S11000000_S11000000x1 : S11000000.ShapeCasts S11000000x1
  inb_S5000x2_S5000x2_0_0 : ∀ a, (![0, 0] : Fin 2 → Nat) a + S5000x2.size a ≤ S5000x2.size a
  h_S5000x2 : 0 < S5000x2.numel
  bitsLt_bf16_f32 : FTy.bits .bf16 < FTy.bits .f32
  inb_S2x8_S2x8_0_0 : ∀ a, (![0, 0] : Fin 2 → Nat) a + S2x8.size a ≤ S2x8.size a
  h_S2x8 : 0 < S2x8.numel
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x8 : S5000x1.Broadcasts S5000x8
  bcast_S_S1000000x8 : S_.BroadcastsInDim S1000000x8 (![] : Fin 0 → Fin S1000000x8.rank)
  shapeCasts_S8_S1x8 : S8.ShapeCasts S1x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x2_S8x2_0_0 : ∀ a, (![0, 0] : Fin 2 → Nat) a + S8x2.size a ≤ S8x2.size a
  h_S8x2 : 0 < S8x2.numel
  shapeCasts_S5000x2_S5000x2 : S5000x2.ShapeCasts S5000x2
  broadcasts_S5000x1_S5000x2 : S5000x1.Broadcasts S5000x2
  bcast_S_S1000000x2 : S_.BroadcastsInDim S1000000x2 (![] : Fin 0 → Fin S1000000x2.rank)
  shapeCasts_S2_S1x2 : S2.ShapeCasts S1x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S1000000_S11000000x1_S11000000_n_0_0_1_wf : ScatterDims.WF S1000000 S11000000x1 S11000000 [] [0] [0] 1
  gather_S1000000_S11000000x1_S11000000_n_0_n_n_0_1_1_wf : GatherDims.WF S1000000 S11000000x1 S11000000 [] [0] [] [0] [] 1 ![1]
  dot_S5000x2_S2x8_S5000x8_1_0_0_1_n_n_wf : DotDims.WF S5000x2 S2x8 S5000x8 [1] [0] [0] [1] [] []
  gather_S1000000x8_S11000000x1_S11000000x8_1_0_n_n_0_1_18_wf : GatherDims.WF S1000000x8 S11000000x1 S11000000x8 [1] [0] [] [0] [] 1 ![1, 8]
  scatter_S1000000x8_S11000000x1_S11000000x8_1_0_0_1_wf : ScatterDims.WF S1000000x8 S11000000x1 S11000000x8 [1] [0] [0] 1
  dot_S5000x8_S8x2_S5000x2_1_0_0_1_n_n_wf : DotDims.WF S5000x8 S8x2 S5000x2 [1] [0] [0] [1] [] []
  gather_S1000000x2_S11000000x1_S11000000x2_1_0_n_n_0_1_12_wf : GatherDims.WF S1000000x2 S11000000x1 S11000000x2 [1] [0] [] [0] [] 1 ![1, 2]
  scatter_S1000000x2_S11000000x1_S11000000x2_1_0_0_1_wf : ScatterDims.WF S1000000x2 S11000000x1 S11000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S1000000x2.size a
  hwx0_0 : ∀ i : grid0.Coords, EltTy.bits .f32 = 32 ∨ (Rect.block (s := S1000000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x8.size a ≤ S2x8.size a
  hwx0_1 : ∀ i : grid0.Coords, EltTy.bits .f32 = 32 ∨ (Rect.block (s := S2x8) S2x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x8.size a ≤ S1000000x8.size a
  hwx0_2 : ∀ i : grid0.Coords, EltTy.bits .f32 = 32 ∨ (Rect.block (s := S1000000x8) S5000x8.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x8.size a ≤ S11000000x8.size a
  hwx1_0 : ∀ i : grid1.Coords, EltTy.bits .f32 = 32 ∨ (Rect.block (s := S11000000x8) S5000x8.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S11000000x1.size a
  hwx1_1 : ∀ i : grid1.Coords, EltTy.bits .f32 = 32 ∨ (Rect.block (s := S11000000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S11000000x8.size a
  hwx1_2 : ∀ i : grid1.Coords, EltTy.bits .f32 = 32 ∨ (Rect.block (s := S11000000x8) S5000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S1000000x8.size a
  hwx2_0 : ∀ i : grid2.Coords, EltTy.bits .f32 = 32 ∨ (Rect.block (s := S1000000x8) S5000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8.size a ≤ S1x8.size a
  hwx2_1 : ∀ i : grid2.Coords, EltTy.bits .f32 = 32 ∨ (Rect.block (s := S1x8) S1x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S1000000x8.size a
  hwx2_2 : ∀ i : grid2.Coords, EltTy.bits .f32 = 32 ∨ (Rect.block (s := S1000000x8) S5000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S1000000x8.size a
  hwx3_0 : ∀ i : grid3.Coords, EltTy.bits .f32 = 32 ∨ (Rect.block (s := S1000000x8) S5000x8.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8x2.size a ≤ S8x2.size a
  hwx3_1 : ∀ i : grid3.Coords, EltTy.bits .f32 = 32 ∨ (Rect.block (s := S8x2) S8x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S1000000x2.size a
  hwx3_2 : ∀ i : grid3.Coords, EltTy.bits .f32 = 32 ∨ (Rect.block (s := S1000000x2) S5000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x2.size a ≤ S11000000x2.size a
  hwx4_0 : ∀ i : grid4.Coords, EltTy.bits .f32 = 32 ∨ (Rect.block (s := S11000000x2) S5000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S11000000x1.size a
  hwx4_1 : ∀ i : grid4.Coords, EltTy.bits .f32 = 32 ∨ (Rect.block (s := S11000000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x2.size a ≤ S11000000x2.size a
  hwx4_2 : ∀ i : grid4.Coords, EltTy.bits .f32 = 32 ∨ (Rect.block (s := S11000000x2) S5000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S1000000x2.size a
  hwx5_0 : ∀ i : grid5.Coords, EltTy.bits .f32 = 32 ∨ (Rect.block (s := S1000000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x2.size a ≤ S1000000x2.size a
  hwx5_2 : ∀ i : grid5.Coords, EltTy.bits .f32 = 32 ∨ (Rect.block (s := S1000000x2) S5000x2.size (cc5_transform_2 i) (hinb5_2 i)).WholeWords (EltTy.packing .f32)

variable [Facts₀]

def scatter_S1000000_S11000000x1_S11000000_n_0_0_1 : ScatterDims S1000000 S11000000x1 S11000000 where
  updateWindowDims := []
  insertedWindowDims := [0]
  scatterDimsToOperandDims := [0]
  indexVectorDim := 1
  wf := scatter_S1000000_S11000000x1_S11000000_n_0_0_1_wf
def gather_S1000000_S11000000x1_S11000000_n_0_n_n_0_1_1 : GatherDims S1000000 S11000000x1 S11000000 where
  offsetDims := []
  collapsedSliceDims := [0]
  operandBatchingDims := []
  startIndicesBatchingDims := []
  startIndexMap := [0]
  indexVectorDim := 1
  sliceSizes := ![1]
  wf := gather_S1000000_S11000000x1_S11000000_n_0_n_n_0_1_1_wf
def dot_S5000x2_S2x8_S5000x8_1_0_0_1_n_n : DotDims S5000x2 S2x8 S5000x8 where
  lhsContracting := [1]
  rhsContracting := [0]
  lhsNonContracting := [0]
  rhsNonContracting := [1]
  lhsBatch := []
  rhsBatch := []
  wf := dot_S5000x2_S2x8_S5000x8_1_0_0_1_n_n_wf
def gather_S1000000x8_S11000000x1_S11000000x8_1_0_n_n_0_1_18 : GatherDims S1000000x8 S11000000x1 S11000000x8 where
  offsetDims := [1]
  collapsedSliceDims := [0]
  operandBatchingDims := []
  startIndicesBatchingDims := []
  startIndexMap := [0]
  indexVectorDim := 1
  sliceSizes := ![1, 8]
  wf := gather_S1000000x8_S11000000x1_S11000000x8_1_0_n_n_0_1_18_wf
def scatter_S1000000x8_S11000000x1_S11000000x8_1_0_0_1 : ScatterDims S1000000x8 S11000000x1 S11000000x8 where
  updateWindowDims := [1]
  insertedWindowDims := [0]
  scatterDimsToOperandDims := [0]
  indexVectorDim := 1
  wf := scatter_S1000000x8_S11000000x1_S11000000x8_1_0_0_1_wf
def dot_S5000x8_S8x2_S5000x2_1_0_0_1_n_n : DotDims S5000x8 S8x2 S5000x2 where
  lhsContracting := [1]
  rhsContracting := [0]
  lhsNonContracting := [0]
  rhsNonContracting := [1]
  lhsBatch := []
  rhsBatch := []
  wf := dot_S5000x8_S8x2_S5000x2_1_0_0_1_n_n_wf
def gather_S1000000x2_S11000000x1_S11000000x2_1_0_n_n_0_1_12 : GatherDims S1000000x2 S11000000x1 S11000000x2 where
  offsetDims := [1]
  collapsedSliceDims := [0]
  operandBatchingDims := []
  startIndicesBatchingDims := []
  startIndexMap := [0]
  indexVectorDim := 1
  sliceSizes := ![1, 2]
  wf := gather_S1000000x2_S11000000x1_S11000000x2_1_0_n_n_0_1_12_wf
def scatter_S1000000x2_S11000000x1_S11000000x2_1_0_0_1 : ScatterDims S1000000x2 S11000000x1 S11000000x2 where
  updateWindowDims := [1]
  insertedWindowDims := [0]
  scatterDimsToOperandDims := [0]
  indexVectorDim := 1
  wf := scatter_S1000000x2_S11000000x1_S11000000x2_1_0_0_1_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x8.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S5000x8.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S5000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S8x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S5000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S5000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v57) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S5000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S1000000x2 : Shape := ⟨2, ![1000000, 2]⟩
abbrev S2x10000000 : Shape := ⟨2, ![2, 10000000]⟩
abbrev S2x8 : Shape := ⟨2, ![2, 8]⟩
abbrev S8 : Shape := ⟨1, ![8]⟩
abbrev S8x2 : Shape := ⟨2, ![8, 2]⟩
abbrev S2 : Shape := ⟨1, ![2]⟩
abbrev S1000000 : Shape := ⟨1, ![1000000]⟩
abbrev S1x10000000 : Shape := ⟨2, ![1, 10000000]⟩
abbrev S10000000 : Shape := ⟨1, ![10000000]⟩
abbrev S11000000 : Shape := ⟨1, ![11000000]⟩
abbrev S1000000x8 : Shape := ⟨2, ![1000000, 8]⟩
abbrev S_ : Shape := ⟨0, ![]⟩
abbrev S11000000x1 : Shape := ⟨2, ![11000000, 1]⟩
abbrev S11000000x8 : Shape := ⟨2, ![11000000, 8]⟩
abbrev S1x8 : Shape := ⟨2, ![1, 8]⟩
abbrev S11000000x2 : Shape := ⟨2, ![11000000, 2]⟩
abbrev S1x2 : Shape := ⟨2, ![1, 2]⟩

abbrev nBuf : Space → Nat
  | .hbm => 122
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S2x10000000, .i32⟩
  | .hbm, ⟨2, _⟩ => ⟨S2x8, .f32⟩
  | .hbm, ⟨3, _⟩ => ⟨S8, .f32⟩
  | .hbm, ⟨4, _⟩ => ⟨S8x2, .f32⟩
  | .hbm, ⟨5, _⟩ => ⟨S2, .f32⟩
  | .hbm, ⟨6, _⟩ => ⟨S1000000, .i32⟩
  | .hbm, ⟨7, _⟩ => ⟨S1x10000000, .i32⟩
  | .hbm, ⟨8, _⟩ => ⟨S10000000, .i32⟩
  | .hbm, ⟨9, _⟩ => ⟨S11000000, .i32⟩
  | .hbm, ⟨10, _⟩ => ⟨S1x10000000, .i32⟩
  | .hbm, ⟨11, _⟩ => ⟨S10000000, .i32⟩
  | .hbm, ⟨12, _⟩ => ⟨S11000000, .i32⟩
  | .hbm, ⟨13, _⟩ => ⟨S1000000x8, .f32⟩
  | .hbm, ⟨14, _⟩ => ⟨S_, .f32⟩
  | .hbm, ⟨15, _⟩ => ⟨S11000000, .f32⟩
  | .hbm, ⟨16, _⟩ => ⟨S_, .f32⟩
  | .hbm, ⟨17, _⟩ => ⟨S1000000, .f32⟩
  | .hbm, ⟨18, _⟩ => ⟨S11000000x1, .i32⟩
  | .hbm, ⟨19, _⟩ => ⟨S1000000, .f32⟩
  | .hbm, ⟨20, _⟩ => ⟨S_, .f32⟩
  | .hbm, ⟨21, _⟩ => ⟨S1000000, .f32⟩
  | .hbm, ⟨22, _⟩ => ⟨S1000000, .i1⟩
  | .hbm, ⟨23, _⟩ => ⟨S1000000, .f32⟩
  | .hbm, ⟨24, _⟩ => ⟨S_, .f32⟩
  | .hbm, ⟨25, _⟩ => ⟨S_, .f32⟩
  | .hbm, ⟨26, _⟩ => ⟨S1000000, .f32⟩
  | .hbm, ⟨27, _⟩ => ⟨S1000000, .f32⟩
  | .hbm, ⟨28, _⟩ => ⟨S_, .i32⟩
  | .hbm, ⟨29, _⟩ => ⟨S11000000, .i32⟩
  | .hbm, ⟨30, _⟩ => ⟨S11000000, .i1⟩
  | .hbm, ⟨31, _⟩ => ⟨S_, .i32⟩
  | .hbm, ⟨32, _⟩ => ⟨S11000000, .i32⟩
  | .hbm, ⟨33, _⟩ => ⟨S11000000, .i32⟩
  | .hbm, ⟨34, _⟩ => ⟨S11000000, .i32⟩
  | .hbm, ⟨35, _⟩ => ⟨S11000000x1, .i32⟩
  | .hbm, ⟨36, _⟩ => ⟨S11000000, .f32⟩
  | .hbm, ⟨37, _⟩ => ⟨S_, .i32⟩
  | .hbm, ⟨38, _⟩ => ⟨S11000000, .i32⟩
  | .hbm, ⟨39, _⟩ => ⟨S11000000, .i1⟩
  | .hbm, ⟨40, _⟩ => ⟨S_, .i32⟩
  | .hbm, ⟨41, _⟩ => ⟨S11000000, .i32⟩
  | .hbm, ⟨42, _⟩ => ⟨S11000000, .i32⟩
  | .hbm, ⟨43, _⟩ => ⟨S11000000, .i32⟩
  | .hbm, ⟨44, _⟩ => ⟨S11000000x1, .i32⟩
  | .hbm, ⟨45, _⟩ => ⟨S11000000, .f32⟩
  | .hbm, ⟨46, _⟩ => ⟨S11000000, .f32⟩
  | .hbm, ⟨47, _⟩ => ⟨S_, .i32⟩
  | .hbm, ⟨48, _⟩ => ⟨S11000000, .i32⟩
  | .hbm, ⟨49, _⟩ => ⟨S11000000, .i1⟩
  | .hbm, ⟨50, _⟩ => ⟨S_, .i32⟩
  | .hbm, ⟨51, _⟩ => ⟨S11000000, .i32⟩
  | .hbm, ⟨52, _⟩ => ⟨S11000000, .i32⟩
  | .hbm, ⟨53, _⟩ => ⟨S11000000, .i32⟩
  | .hbm, ⟨54, _⟩ => ⟨S11000000x1, .i32⟩
  | .hbm, ⟨55, _⟩ => ⟨S11000000x8, .f32⟩
  | .hbm, ⟨56, _⟩ => ⟨S11000000x1, .f32⟩
  | .hbm, ⟨57, _⟩ => ⟨S11000000x8, .f32⟩
  | .hbm, ⟨58, _⟩ => ⟨S11000000x8, .f32⟩
  | .hbm, ⟨59, _⟩ => ⟨S_, .f32⟩
  | .hbm, ⟨60, _⟩ => ⟨S1000000x8, .f32⟩
  | .hbm, ⟨61, _⟩ => ⟨S11000000x1, .i32⟩
  | .hbm, ⟨62, _⟩ => ⟨S1000000x8, .f32⟩
  | .hbm, ⟨63, _⟩ => ⟨S1x8, .f32⟩
  | .hbm, ⟨64, _⟩ => ⟨S1000000x8, .f32⟩
  | .hbm, ⟨65, _⟩ => ⟨S1000000x8, .f32⟩
  | .hbm, ⟨66, _⟩ => ⟨S_, .f32⟩
  | .hbm, ⟨67, _⟩ => ⟨S1000000x8, .f32⟩
  | .hbm, ⟨68, _⟩ => ⟨S1000000x8, .f32⟩
  | .hbm, ⟨69, _⟩ => ⟨S1000000x2, .f32⟩
  | .hbm, ⟨70, _⟩ => ⟨S_, .f32⟩
  | .hbm, ⟨71, _⟩ => ⟨S11000000, .f32⟩
  | .hbm, ⟨72, _⟩ => ⟨S_, .f32⟩
  | .hbm, ⟨73, _⟩ => ⟨S1000000, .f32⟩
  | .hbm, ⟨74, _⟩ => ⟨S11000000x1, .i32⟩
  | .hbm, ⟨75, _⟩ => ⟨S1000000, .f32⟩
  | .hbm, ⟨76, _⟩ => ⟨S_, .f32⟩
  | .hbm, ⟨77, _⟩ => ⟨S1000000, .f32⟩
  | .hbm, ⟨78, _⟩ => ⟨S1000000, .i1⟩
  | .hbm, ⟨79, _⟩ => ⟨S1000000, .f32⟩
  | .hbm, ⟨80, _⟩ => ⟨S_, .f32⟩
  | .hbm, ⟨81, _⟩ => ⟨S_, .f32⟩
  | .hbm, ⟨82, _⟩ => ⟨S1000000, .f32⟩
  | .hbm, ⟨83, _⟩ => ⟨S1000000, .f32⟩
  | .hbm, ⟨84, _⟩ => ⟨S_, .i32⟩
  | .hbm, ⟨85, _⟩ => ⟨S11000000, .i32⟩
  | .hbm, ⟨86, _⟩ => ⟨S11000000, .i1⟩
  | .hbm, ⟨87, _⟩ => ⟨S_, .i32⟩
  | .hbm, ⟨88, _⟩ => ⟨S11000000, .i32⟩
  | .hbm, ⟨89, _⟩ => ⟨S11000000, .i32⟩
  | .hbm, ⟨90, _⟩ => ⟨S11000000, .i32⟩
  | .hbm, ⟨91, _⟩ => ⟨S11000000x1, .i32⟩
  | .hbm, ⟨92, _⟩ => ⟨S11000000, .f32⟩
  | .hbm, ⟨93, _⟩ => ⟨S_, .i32⟩
  | .hbm, ⟨94, _⟩ => ⟨S11000000, .i32⟩
  | .hbm, ⟨95, _⟩ => ⟨S11000000, .i1⟩
  | .hbm, ⟨96, _⟩ => ⟨S_, .i32⟩
  | .hbm, ⟨97, _⟩ => ⟨S11000000, .i32⟩
  | .hbm, ⟨98, _⟩ => ⟨S11000000, .i32⟩
  | .hbm, ⟨99, _⟩ => ⟨S11000000, .i32⟩
  | .hbm, ⟨100, _⟩ => ⟨S11000000x1, .i32⟩
  | .hbm, ⟨101, _⟩ => ⟨S11000000, .f32⟩
  | .hbm, ⟨102, _⟩ => ⟨S11000000, .f32⟩
  | .hbm, ⟨103, _⟩ => ⟨S_, .i32⟩
  | .hbm, ⟨104, _⟩ => ⟨S11000000, .i32⟩
  | .hbm, ⟨105, _⟩ => ⟨S11000000, .i1⟩
  | .hbm, ⟨106, _⟩ => ⟨S_, .i32⟩
  | .hbm, ⟨107, _⟩ => ⟨S11000000, .i32⟩
  | .hbm, ⟨108, _⟩ => ⟨S11000000, .i32⟩
  | .hbm, ⟨109, _⟩ => ⟨S11000000, .i32⟩
  | .hbm, ⟨110, _⟩ => ⟨S11000000x1, .i32⟩
  | .hbm, ⟨111, _⟩ => ⟨S11000000x2, .f32⟩
  | .hbm, ⟨112, _⟩ => ⟨S11000000x1, .f32⟩
  | .hbm, ⟨113, _⟩ => ⟨S11000000x2, .f32⟩
  | .hbm, ⟨114, _⟩ => ⟨S11000000x2, .f32⟩
  | .hbm, ⟨115, _⟩ => ⟨S_, .f32⟩
  | .hbm, ⟨116, _⟩ => ⟨S1000000x2, .f32⟩
  | .hbm, ⟨117, _⟩ => ⟨S11000000x1, .i32⟩
  | .hbm, ⟨118, _⟩ => ⟨S1000000x2, .f32⟩
  | .hbm, ⟨119, _⟩ => ⟨S1x2, .f32⟩
  | .hbm, ⟨120, _⟩ => ⟨S1000000x2, .f32⟩
  | .hbm, ⟨121, _⟩ => ⟨S1000000x2, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x10000000_S1x10000000_0_0 : S2x10000000.Slices ![0, 0] S1x10000000
  shapeCasts_S1x10000000_S10000000 : S1x10000000.ShapeCasts S10000000
  concatenates_S10000000_S1000000_S11000000_d0 : Shape.Concatenates [S10000000, S1000000] S11000000 0
  slices_S2x10000000_S1x10000000_1_0 : S2x10000000.Slices ![1, 0] S1x10000000
  bcast_S_S11000000 : S_.BroadcastsInDim S11000000 (![] : Fin 0 → Fin S11000000.rank)
  bcast_S_S1000000 : S_.BroadcastsInDim S1000000 (![] : Fin 0 → Fin S1000000.rank)
  bcast_S11000000_S11000000x1_0 : S11000000.BroadcastsInDim S11000000x1 (![0] : Fin 1 → Fin S11000000x1.rank)
  bcast_S11000000x1_S11000000x8_0_1 : S11000000x1.BroadcastsInDim S11000000x8 (![0, 1] : Fin 2 → Fin S11000000x8.rank)
  bcast_S_S1000000x8 : S_.BroadcastsInDim S1000000x8 (![] : Fin 0 → Fin S1000000x8.rank)
  bcast_S8_S1x8_1 : S8.BroadcastsInDim S1x8 (![1] : Fin 1 → Fin S1x8.rank)
  bcast_S1x8_S1000000x8_0_1 : S1x8.BroadcastsInDim S1000000x8 (![0, 1] : Fin 2 → Fin S1000000x8.rank)
  bcast_S11000000x1_S11000000x2_0_1 : S11000000x1.BroadcastsInDim S11000000x2 (![0, 1] : Fin 2 → Fin S11000000x2.rank)
  bcast_S_S1000000x2 : S_.BroadcastsInDim S1000000x2 (![] : Fin 0 → Fin S1000000x2.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  dot_S1000000x2_S2x8_S1000000x8_1_0_0_1_n_n_wf : DotDims.WF S1000000x2 S2x8 S1000000x8 [1] [0] [0] [1] [] []
  scatter_S1000000_S11000000x1_S11000000_n_0_0_1_wf : ScatterDims.WF S1000000 S11000000x1 S11000000 [] [0] [0] 1
  gather_S1000000_S11000000x1_S11000000_n_0_n_n_0_1_1_wf : GatherDims.WF S1000000 S11000000x1 S11000000 [] [0] [] [0] [] 1 ![1]
  gather_S1000000x8_S11000000x1_S11000000x8_1_0_n_n_0_1_18_wf : GatherDims.WF S1000000x8 S11000000x1 S11000000x8 [1] [0] [] [0] [] 1 ![1, 8]
  scatter_S1000000x8_S11000000x1_S11000000x8_1_0_0_1_wf : ScatterDims.WF S1000000x8 S11000000x1 S11000000x8 [1] [0] [0] 1
  dot_S1000000x8_S8x2_S1000000x2_1_0_0_1_n_n_wf : DotDims.WF S1000000x8 S8x2 S1000000x2 [1] [0] [0] [1] [] []
  gather_S1000000x2_S11000000x1_S11000000x2_1_0_n_n_0_1_12_wf : GatherDims.WF S1000000x2 S11000000x1 S11000000x2 [1] [0] [] [0] [] 1 ![1, 2]
  scatter_S1000000x2_S11000000x1_S11000000x2_1_0_0_1_wf : ScatterDims.WF S1000000x2 S11000000x1 S11000000x2 [1] [0] [0] 1

variable [Facts₀]

def dot_S1000000x2_S2x8_S1000000x8_1_0_0_1_n_n : DotDims S1000000x2 S2x8 S1000000x8 where
  lhsContracting := [1]
  rhsContracting := [0]
  lhsNonContracting := [0]
  rhsNonContracting := [1]
  lhsBatch := []
  rhsBatch := []
  wf := dot_S1000000x2_S2x8_S1000000x8_1_0_0_1_n_n_wf
def scatter_S1000000_S11000000x1_S11000000_n_0_0_1 : ScatterDims S1000000 S11000000x1 S11000000 where
  updateWindowDims := []
  insertedWindowDims := [0]
  scatterDimsToOperandDims := [0]
  indexVectorDim := 1
  wf := scatter_S1000000_S11000000x1_S11000000_n_0_0_1_wf
def gather_S1000000_S11000000x1_S11000000_n_0_n_n_0_1_1 : GatherDims S1000000 S11000000x1 S11000000 where
  offsetDims := []
  collapsedSliceDims := [0]
  operandBatchingDims := []
  startIndicesBatchingDims := []
  startIndexMap := [0]
  indexVectorDim := 1
  sliceSizes := ![1]
  wf := gather_S1000000_S11000000x1_S11000000_n_0_n_n_0_1_1_wf
def gather_S1000000x8_S11000000x1_S11000000x8_1_0_n_n_0_1_18 : GatherDims S1000000x8 S11000000x1 S11000000x8 where
  offsetDims := [1]
  collapsedSliceDims := [0]
  operandBatchingDims := []
  startIndicesBatchingDims := []
  startIndexMap := [0]
  indexVectorDim := 1
  sliceSizes := ![1, 8]
  wf := gather_S1000000x8_S11000000x1_S11000000x8_1_0_n_n_0_1_18_wf
def scatter_S1000000x8_S11000000x1_S11000000x8_1_0_0_1 : ScatterDims S1000000x8 S11000000x1 S11000000x8 where
  updateWindowDims := [1]
  insertedWindowDims := [0]
  scatterDimsToOperandDims := [0]
  indexVectorDim := 1
  wf := scatter_S1000000x8_S11000000x1_S11000000x8_1_0_0_1_wf
def dot_S1000000x8_S8x2_S1000000x2_1_0_0_1_n_n : DotDims S1000000x8 S8x2 S1000000x2 where
  lhsContracting := [1]
  rhsContracting := [0]
  lhsNonContracting := [0]
  rhsNonContracting := [1]
  lhsBatch := []
  rhsBatch := []
  wf := dot_S1000000x8_S8x2_S1000000x2_1_0_0_1_n_n_wf
def gather_S1000000x2_S11000000x1_S11000000x2_1_0_n_n_0_1_12 : GatherDims S1000000x2 S11000000x1 S11000000x2 where
  offsetDims := [1]
  collapsedSliceDims := [0]
  operandBatchingDims := []
  startIndicesBatchingDims := []
  startIndexMap := [0]
  indexVectorDim := 1
  sliceSizes := ![1, 2]
  wf := gather_S1000000x2_S11000000x1_S11000000x2_1_0_n_n_0_1_12_wf
def scatter_S1000000x2_S11000000x1_S11000000x2_1_0_0_1 : ScatterDims S1000000x2 S11000000x1 S11000000x2 where
  updateWindowDims := [1]
  insertedWindowDims := [0]
  scatterDimsToOperandDims := [0]
  indexVectorDim := 1
  wf := scatter_S1000000x2_S11000000x1_S11000000x2_1_0_0_1_wf

class Facts : Prop extends Facts₀ where

variable [Facts]
-- ==== Proof.Stages.lean ====
/-
  The two-layer graph convolution as a function of its six arguments, stage by stage.

  With `N = 1000000` nodes and `E = 10000000` listed edges, every node gets a self loop: the source ends are row 0
  of the edge list followed by `0 … N-1`, the target ends row 1 followed by `0 … N-1` (`E + N = 11000000` edges).
  A node's degree is the number of edges that end at it (a scatter-add of ones); its weight is `degree^(-1/2)`
  where the degree is positive and `0` elsewhere; an edge's weight is the product of its two ends' weights.
  One layer maps node features `h` to `A (h · W) + b`: the features times the weight matrix, gathered at the
  edges' source ends, scaled by the edge weights, summed at the target ends (a scatter-add into zeros), plus the
  bias row.  The network is a layer of width 8 followed by `max(·, 0)` and a layer of width 2.

  Every stage is spelt with the host operations and dimension records of the reference program, so that the
  reference's composed result is this function by unfolding, and nothing here is evaluated.
-/
import proofs.«102995_j13469017440589_2_alg».proof.Proof.Gen.ReferenceIdeal
import Idealize.ShloMosaic.PureOps.Ideal

noncomputable section

namespace Cert.ReferenceIdeal.Gcn

open Cert.ReferenceIdeal Cert.ReferenceIdeal.Gen Idealize.ShloMosaic

variable {F : FTy → Type} [FloatOps F]

/-- The edges' source ends: row 0 of the edge list, then one self loop per node. -/
def sources (e : (⟨S2x10000000, .i32⟩ : BufTy).Contents (Elt F)) : (⟨S11000000, .i32⟩ : BufTy).Contents (Elt F) :=
  concatenate S11000000 0 [⟨S10000000, (shapeCast _ (extractStridedSlice S1x10000000 ![0, 0] e slices_S2x10000000_S1x10000000_0_0) shapeCasts_S1x10000000_S10000000)⟩, ⟨S1000000, (iotaInDim S1000000 32 0)⟩] concatenates_S10000000_S1000000_S11000000_d0

/-- The edges' target ends: row 1 of the edge list, then one self loop per node. -/
def targets (e : (⟨S2x10000000, .i32⟩ : BufTy).Contents (Elt F)) : (⟨S11000000, .i32⟩ : BufTy).Contents (Elt F) :=
  concatenate S11000000 0 [⟨S10000000, (shapeCast _ (extractStridedSlice S1x10000000 ![1, 0] e slices_S2x10000000_S1x10000000_1_0) shapeCasts_S1x10000000_S10000000)⟩, ⟨S1000000, (iotaInDim S1000000 32 0)⟩] concatenates_S10000000_S1000000_S11000000_d0

/-- A node number counted from the end (negative) is brought into range by adding `N`; the others are kept. -/
def wrapped (i : (⟨S11000000, .i32⟩ : BufTy).Contents (Elt F)) : (⟨S11000000, .i32⟩ : BufTy).Contents (Elt F) :=
  select (cmpi .slt i (broadcastInDim S11000000 ![] bcast_S_S11000000 (constantI S_ 32 0#32))) (addi i (broadcastInDim S11000000 ![] bcast_S_S11000000 (constantI S_ 32 1000000#32))) i

/-- The number of edges ending at each node. -/
def degree (dst : (⟨S11000000, .i32⟩ : BufTy).Contents (Elt F)) : (⟨S1000000, .f32⟩ : BufTy).Contents (Elt F) :=
  Host.scatterAdd scatter_S1000000_S11000000x1_S11000000_n_0_0_1 (broadcastInDim S1000000 ![] bcast_S_S1000000 (constant S_ .f32 0x00000000#32)) (broadcastInDim S11000000x1 ![0] bcast_S11000000_S11000000x1_0 dst) (broadcastInDim S11000000 ![] bcast_S_S11000000 (constant S_ .f32 0x3F800000#32))

/-- A node's weight: `degree^(-1/2)` where the degree is positive, `0` elsewhere. -/
def nodeWeight (dst : (⟨S11000000, .i32⟩ : BufTy).Contents (Elt F)) : (⟨S1000000, .f32⟩ : BufTy).Contents (Elt F) :=
  select (cmpf (F := F) .ogt (degree (F := F) dst) (broadcastInDim S1000000 ![] bcast_S_S1000000 (constant S_ .f32 0x00000000#32))) (Host.rsqrt (degree (F := F) dst)) (broadcastInDim S1000000 ![] bcast_S_S1000000 (id (constant S_ .f32 0x00000000#32)))

/-- An edge's weight: the product of the weights of its two ends. -/
def edgeWeight (src dst : (⟨S11000000, .i32⟩ : BufTy).Contents (Elt F)) : (⟨S11000000, .f32⟩ : BufTy).Contents (Elt F) :=
  mulf (Host.gather gather_S1000000_S11000000x1_S11000000_n_0_n_n_0_1_1 (nodeWeight (F := F) dst) (broadcastInDim S11000000x1 ![0] bcast_S11000000_S11000000x1_0 (wrapped (F := F) src))) (Host.gather gather_S1000000_S11000000x1_S11000000_n_0_n_n_0_1_1 (nodeWeight (F := F) dst) (broadcastInDim S11000000x1 ![0] bcast_S11000000_S11000000x1_0 (wrapped (F := F) dst)))

/-- The edge weights as a column, one per edge. -/
def weightColumn (src dst : (⟨S11000000, .i32⟩ : BufTy).Contents (Elt F)) : (⟨S11000000x1, .f32⟩ : BufTy).Contents (Elt F) :=
  broadcastInDim S11000000x1 ![0] bcast_S11000000_S11000000x1_0 (edgeWeight (F := F) src dst)

/-! ## Width 8 -/

/-- Node features of width 8 read at every edge's source end. -/
def atSources8 (h : (⟨S1000000x8, .f32⟩ : BufTy).Contents (Elt F)) (src : (⟨S11000000, .i32⟩ : BufTy).Contents (Elt F)) : (⟨S11000000x8, .f32⟩ : BufTy).Contents (Elt F) :=
  Host.gather gather_S1000000x8_S11000000x1_S11000000x8_1_0_n_n_0_1_18 h (broadcastInDim S11000000x1 ![0] bcast_S11000000_S11000000x1_0 (wrapped (F := F) src))

/-- Edge messages of width 8 scaled by a column of edge weights. -/
def scaled8 (g : (⟨S11000000x8, .f32⟩ : BufTy).Contents (Elt F)) (w : (⟨S11000000x1, .f32⟩ : BufTy).Contents (Elt F)) : (⟨S11000000x8, .f32⟩ : BufTy).Contents (Elt F) :=
  mulf g (broadcastInDim S11000000x8 ![0, 1] bcast_S11000000x1_S11000000x8_0_1 w)

/-- Edge messages of width 8 summed at the edges' target ends. -/
def atTargets8 (msg : (⟨S11000000x8, .f32⟩ : BufTy).Contents (Elt F)) (dst : (⟨S11000000, .i32⟩ : BufTy).Contents (Elt F)) : (⟨S1000000x8, .f32⟩ : BufTy).Contents (Elt F) :=
  Host.scatterAdd scatter_S1000000x8_S11000000x1_S11000000x8_1_0_0_1 (broadcastInDim S1000000x8 ![] bcast_S_S1000000x8 (constant S_ .f32 0x00000000#32)) (broadcastInDim S11000000x1 ![0] bcast_S11000000_S11000000x1_0 dst) msg

/-- A bias row of width 8 added to every node's features, then `max(·, 0)`. -/
def biasedRelu8 (y : (⟨S1000000x8, .f32⟩ : BufTy).Contents (Elt F)) (row : (⟨S1x8, .f32⟩ : BufTy).Contents (Elt F)) : (⟨S1000000x8, .f32⟩ : BufTy).Contents (Elt F) :=
  maximumf (addf y (broadcastInDim S1000000x8 ![0, 1] bcast_S1x8_S1000000x8_0_1 row)) (broadcastInDim S1000000x8 ![] bcast_S_S1000000x8 (constant S_ .f32 0x00000000#32))

/-- The first layer's product: node features of width 2 times the 2 × 8 weight matrix. -/
def product8 (x : (⟨S1000000x2, .f32⟩ : BufTy).Contents (Elt F)) (W : (⟨S2x8, .f32⟩ : BufTy).Contents (Elt F)) : (⟨S1000000x8, .f32⟩ : BufTy).Contents (Elt F) :=
  Host.dotGeneral dot_S1000000x2_S2x8_S1000000x8_1_0_0_1_n_n none x W

/-- The hidden features: the first layer followed by `max(·, 0)`. -/
def hidden (x : (⟨S1000000x2, .f32⟩ : BufTy).Contents (Elt F)) (e : (⟨S2x10000000, .i32⟩ : BufTy).Contents (Elt F)) (W1 : (⟨S2x8, .f32⟩ : BufTy).Contents (Elt F)) (b1 : (⟨S8, .f32⟩ : BufTy).Contents (Elt F)) : (⟨S1000000x8, .f32⟩ : BufTy).Contents (Elt F) :=
  biasedRelu8 (atTargets8 (scaled8 (atSources8 (product8 x W1) (sources (F := F) e)) (weightColumn (F := F) (sources (F := F) e) (targets (F := F) e))) (targets (F := F) e))
    (broadcastInDim S1x8 ![1] bcast_S8_S1x8_1 b1)

/-! ## Width 2 -/

/-- Node features of width 2 read at every edge's source end. -/
def atSources2 (h : (⟨S1000000x2, .f32⟩ : BufTy).Contents (Elt F)) (src : (⟨S11000000, .i32⟩ : BufTy).Contents (Elt F)) : (⟨S11000000x2, .f32⟩ : BufTy).Contents (Elt F) :=
  Host.gather gather_S1000000x2_S11000000x1_S11000000x2_1_0_n_n_0_1_12 h (broadcastInDim S11000000x1 ![0] bcast_S11000000_S11000000x1_0 (wrapped (F := F) src))

/-- Edge messages of width 2 scaled by a column of edge weights. -/
def scaled2 (g : (⟨S11000000x2, .f32⟩ : BufTy).Contents (Elt F)) (w : (⟨S11000000x1, .f32⟩ : BufTy).Contents (Elt F)) : (⟨S11000000x2, .f32⟩ : BufTy).Contents (Elt F) :=
  mulf g (broadcastInDim S11000000x2 ![0, 1] bcast_S11000000x1_S11000000x2_0_1 w)

/-- Edge messages of width 2 summed at the edges' target ends. -/
def atTargets2 (msg : (⟨S11000000x2, .f32⟩ : BufTy).Contents (Elt F)) (dst : (⟨S11000000, .i32⟩ : BufTy).Contents (Elt F)) : (⟨S1000000x2, .f32⟩ : BufTy).Contents (Elt F) :=
  Host.scatterAdd scatter_S1000000x2_S11000000x1_S11000000x2_1_0_0_1 (broadcastInDim S1000000x2 ![] bcast_S_S1000000x2 (constant S_ .f32 0x00000000#32)) (broadcastInDim S11000000x1 ![0] bcast_S11000000_S11000000x1_0 dst) msg

/-- A bias row of width 2 added to every node's features. -/
def biased2 (y : (⟨S1000000x2, .f32⟩ : BufTy).Contents (Elt F)) (row : (⟨S1x2, .f32⟩ : BufTy).Contents (Elt F)) : (⟨S1000000x2, .f32⟩ : BufTy).Contents (Elt F) :=
  addf y (broadcastInDim S1000000x2 ![0, 1] bcast_S1x2_S1000000x2_0_1 row)

/-- The second layer's product: hidden features of width 8 times the 8 × 2 weight matrix. -/
def product2 (h : (⟨S1000000x8, .f32⟩ : BufTy).Contents (Elt F)) (W : (⟨S8x2, .f32⟩ : BufTy).Contents (Elt F)) : (⟨S1000000x2, .f32⟩ : BufTy).Contents (Elt F) :=
  Host.dotGeneral dot_S1000000x8_S8x2_S1000000x2_1_0_0_1_n_n none h W

/-- The network's output: the second layer applied to the hidden features. -/
def output (x : (⟨S1000000x2, .f32⟩ : BufTy).Contents (Elt F)) (e : (⟨S2x10000000, .i32⟩ : BufTy).Contents (Elt F)) (W1 : (⟨S2x8, .f32⟩ : BufTy).Contents (Elt F)) (b1 : (⟨S8, .f32⟩ : BufTy).Contents (Elt F)) (W2 : (⟨S8x2, .f32⟩ : BufTy).Contents (Elt F)) (b2 : (⟨S2, .f32⟩ : BufTy).Contents (Elt F)) : (⟨S1000000x2, .f32⟩ : BufTy).Contents (Elt F) :=
  biased2 (atTargets2 (scaled2 (atSources2 (product2 (hidden x e W1 b1) W2) (sources (F := F) e)) (weightColumn (F := F) (sources (F := F) e) (targets (F := F) e))) (targets (F := F) e))
    (broadcastInDim S1x2 ![1] bcast_S2_S1x2_1 b2)

end Cert.ReferenceIdeal.Gcn

end
-- ==== Proof.RefIsGcn.lean ====
/-
  The reference program computes the two-layer graph convolution: the composed term of its 116 host operations is the
  stage-by-stage function of its six arguments, by unfolding the stages (no operation is evaluated).
-/
import proofs.«102995_j13469017440589_2_alg».proof.Proof.RefRunP
import proofs.«102995_j13469017440589_2_alg».proof.Proof.Stages

noncomputable section

namespace Cert.ReferenceIdeal.Gcn

open Cert.ReferenceIdeal Cert.ReferenceIdeal.Gen Idealize.ShloMosaic Idealize.ShloMosaic.TcCoe Idealize.SL.Sem

variable {F : FTy → Type} [FloatOps F]

set_option maxRecDepth 16384 in
/-- The reference's result is the network's output at the launch contents of its six arguments. -/
theorem result_eq (m : (ℓ : Loc nD τ sig) → Buf (Elt F) ℓ) (c : Dev nD) :
    Cert.ReferenceIdeal.ValueP.res_main_v87 m c
      = output (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v87 output hidden biased2 biasedRelu8 atTargets2 atTargets8 scaled2 scaled8 atSources2 atSources8
    product2 product8 weightColumn edgeWeight nodeWeight degree wrapped sources targets
  rfl

end Cert.ReferenceIdeal.Gcn

end
-- ==== Proof.ResultRun.lean ====
/-
  The idealized kernel's run, with its result read.

  @main is thirteen segments: seven stretches of host operations and six kernel regions.  The buffer contents at
  the segment boundaries are a fold from the launch memory (`Gen.W0` … `Gen.W13`): a host stretch applies its
  operations, a region replaces its output array by what its write-backs leave and keeps every other buffer.  Every
  weakly fair execution terminates without a fault in a state whose unscoped buffers hold the last boundary's
  contents `Gen.W13`; so the result buffer ends at `Gen.W13` read at it, and the six arguments end as launched.
-/
import proofs.«102995_j13469017440589_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents and each argument at its launch contents. -/
theorem run : θ_run defs (onTc (τ := τ) (main (F := F))) ⟨m, fun _ => 0, ρ⟩ (fun r => ∀ c : Dev nD,
      r.2.mem ((c.tc : Thread nD τ).loc main_v58) = W13 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v58 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.ResultRun

end
-- ==== Proof.LibUnitAxisCast.lean ====
/-
  A reshape that only adds a unit axis is a broadcast along that axis.

  Reshaping a vector of length `n` to a column `[n, 1]` or to a row `[1, n]` keeps the row-major position of every
  entry, and the new axis has the one coordinate `0`; a `broadcast_in_dim` that sends the vector's axis to the long
  axis of the column or row reads the same entry.  So the two operations are one function, for every length and
  every element type.
-/
import Idealize.ShloMosaic.Lib.Pipeline.Value
import Idealize.ShloMosaic.Lib.ValueIdx

namespace Cert.Lib.UnitAxisCast

open Idealize.ShloMosaic Idealize.ShloMosaic.ValueIdx

/-- A vector of length `n` reshaped to the column `[n, 1]` is the vector broadcast along a new trailing unit axis:
    entry `(r, 0)` of either is entry `r` of the vector. -/
theorem shapeCast_column {α : Type} (n : Nat) (v : (⟨1, ![n]⟩ : Shape).Idx → α)
    (h : (⟨1, ![n]⟩ : Shape).ShapeCasts ⟨2, ![n, 1]⟩)
    (h' : (⟨1, ![n]⟩ : Shape).BroadcastsInDim ⟨2, ![n, 1]⟩ ![0]) :
    shapeCast ⟨2, ![n, 1]⟩ v h = broadcastInDim ⟨2, ![n, 1]⟩ ![0] h' v := by
  funext i
  have hi0 : (i 0).val < n := (i 0).isLt
  have hi1 : (i 1).val < 1 := (i 1).isLt
  rw [shapeCast_apply v h i (ix1 (⟨(i 0).val, hi0⟩ : Fin n)) (by
        rw [Shape.rowMajor_val_one, Shape.rowMajor_val_two]
        show (i 0).val = (i 0).val * 1 + (i 1).val
        omega),
      broadcastInDim_apply ![0] h' v i (ix1 (⟨(i 0).val, hi0⟩ : Fin n)) (fun a => by
        match a with
        | ⟨0, _⟩ =>
          show (i 0).val = if n = 1 then 0 else (i 0).val
          split
          · omega
          · rfl)]

/-- A vector of length `n` reshaped to the row `[1, n]` is the vector broadcast along a new leading unit axis:
    entry `(0, q)` of either is entry `q` of the vector. -/
theorem shapeCast_row {α : Type} (n : Nat) (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ ![1]) :
    shapeCast ⟨2, ![1, n]⟩ v h = broadcastInDim ⟨2, ![1, n]⟩ ![1] h' v := by
  funext i
  have hi0 : (i 0).val < 1 := (i 0).isLt
  have hi1 : (i 1).val < n := (i 1).isLt
  have h0 : (i 0).val = 0 := by omega
  rw [shapeCast_apply v h i (ix1 (⟨(i 1).val, hi1⟩ : Fin n)) (by
        rw [Shape.rowMajor_val_one, Shape.rowMajor_val_two]
        show (i 1).val = (i 0).val * n + (i 1).val
        rw [h0]; omega),
      broadcastInDim_apply ![1] h' v i (ix1 (⟨(i 1).val, hi1⟩ : Fin n)) (fun a => by
        match a with
        | ⟨0, _⟩ =>
          show (i 1).val = if n = 1 then 0 else (i 1).val
          split
          · omega
          · rfl)]

end Cert.Lib.UnitAxisCast
-- ==== Proof.Product8.lean ====
/-
  The first kernel region, read as a whole-array function, at the exact extended reals.

  The region walks the [1000000, 2] array of node features in 200 blocks of 5000 rows.  At block `t` the body loads
  rows `5000 t … 5000 t + 4999` of the features and the whole [2, 8] weight matrix, multiplies them on the matrix
  unit into a zero accumulator, and the [5000, 8] product is written back to the same rows of the output array.  At
  the exact extended reals a change of float format is the identity and the matrix unit's product into zero is the
  plain sum `Σ_k x (p, k) · W (k, q)`; a host matrix product is the same sum.  Since the 200 blocks tile the array,
  after the region the output array is the host matrix product of the whole feature array and the weight matrix.
-/
import proofs.«102995_j13469017440589_2_alg».proof.Proof.Gen.KernelIdeal.Frame
import proofs.«102995_j13469017440589_2_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.Product8

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The dimension record of the whole-array product. -/
abbrev wholeDot := Cert.ReferenceIdeal.dot_S1000000x2_S2x8_S1000000x8_1_0_0_1_n_n
/-- The dimension record of one block's product. -/
abbrev blockDot := dot_S5000x2_S2x8_S5000x8_1_0_0_1_n_n

/-! ## The operand indices of the two products: rows by the output's row, columns by the output's column, the
    contracted axis by the summation index -/

theorem whole_lhs0 (i : S1000000x8.Idx) (s : wholeDot.contr.Idx) : (wholeDot.lhsIdx i s 0).val = (i 0).val := by
  unfold DotDims.lhsIdx
  rw [dif_neg (show ¬(0 : Fin S1000000x2.rank) ∈ wholeDot.lhsBatch by decide), dif_pos (show (0 : Fin S1000000x2.rank) ∈ wholeDot.lhsNonContracting by decide)]
  rfl
theorem whole_lhs1 (i : S1000000x8.Idx) (s : wholeDot.contr.Idx) : (wholeDot.lhsIdx i s 1).val = (s ⟨0, by decide⟩).val :=
  wholeDot.lhsIdx_val_of_single rfl i s
theorem whole_rhs0 (i : S1000000x8.Idx) (s : wholeDot.contr.Idx) : (wholeDot.rhsIdx i s 0).val = (s ⟨0, by decide⟩).val :=
  wholeDot.rhsIdx_val_of_single rfl i s
theorem whole_rhs1 (i : S1000000x8.Idx) (s : wholeDot.contr.Idx) : (wholeDot.rhsIdx i s 1).val = (i 1).val := by
  unfold DotDims.rhsIdx
  rw [dif_neg (show ¬(1 : Fin S2x8.rank) ∈ wholeDot.rhsBatch by decide), dif_pos (show (1 : Fin S2x8.rank) ∈ wholeDot.rhsNonContracting by decide)]
  rfl

theorem block_lhs0 (i : S5000x8.Idx) (s : blockDot.contr.Idx) : (blockDot.lhsIdx i s 0).val = (i 0).val := by
  unfold DotDims.lhsIdx
  rw [dif_neg (show ¬(0 : Fin S5000x2.rank) ∈ blockDot.lhsBatch by decide), dif_pos (show (0 : Fin S5000x2.rank) ∈ blockDot.lhsNonContracting by decide)]
  rfl
theorem block_lhs1 (i : S5000x8.Idx) (s : blockDot.contr.Idx) : (blockDot.lhsIdx i s 1).val = (s ⟨0, by decide⟩).val :=
  blockDot.lhsIdx_val_of_single rfl i s
theorem block_rhs0 (i : S5000x8.Idx) (s : blockDot.contr.Idx) : (blockDot.rhsIdx i s 0).val = (s ⟨0, by decide⟩).val :=
  blockDot.rhsIdx_val_of_single rfl i s
theorem block_rhs1 (i : S5000x8.Idx) (s : blockDot.contr.Idx) : (blockDot.rhsIdx i s 1).val = (i 1).val := by
  unfold DotDims.rhsIdx
  rw [dif_neg (show ¬(1 : Fin S2x8.rank) ∈ blockDot.rhsBatch by decide), dif_pos (show (1 : Fin S2x8.rank) ∈ blockDot.rhsNonContracting by decide)]
  rfl

/-- Entry `(r, q)` of the whole-array product is `Σ_k x (r, k) · W (k, q)`. -/
theorem product_apply (x : FVec Ideal S1000000x2 .f32) (W : FVec Ideal S2x8 .f32) (r : Fin 1000000) (q : Fin 8) :
    Cert.ReferenceIdeal.Gcn.product8 (F := Ideal) x W (ix2 r q) = ∑ k : Fin 2, x (ix2 r k) * W (ix2 k q) := by
  unfold Cert.ReferenceIdeal.Gcn.product8
  simp only [Host.dotGeneral]
  rw [Ideal.dotGeneral_apply, ← Equiv.sum_comp (ValueIdx.contrEquiv1 wholeDot 2 rfl rfl).symm]
  refine Finset.sum_congr rfl fun k _ => ?_
  have hk := ValueIdx.contrEquiv1_symm_val wholeDot 2 rfl rfl k
  have el : wholeDot.lhsIdx (ix2 r q) ((ValueIdx.contrEquiv1 wholeDot 2 rfl rfl).symm k) = ix2 r k := funext fun a => Fin.ext (by
    match a with
    | ⟨0, _⟩ => exact whole_lhs0 _ _
    | ⟨1, _⟩ => exact (whole_lhs1 _ _).trans hk)
  have er : wholeDot.rhsIdx (ix2 r q) ((ValueIdx.contrEquiv1 wholeDot 2 rfl rfl).symm k) = ix2 k q := funext fun a => Fin.ext (by
    match a with
    | ⟨0, _⟩ => exact (whole_rhs0 _ _).trans hk
    | ⟨1, _⟩ => exact whole_rhs1 _ _)
  rw [el, er]

/-- What the body stores, at entry `(p, q)` of the block: `Σ_k x0 (p, k) · x1 (k, q)` of the two loaded blocks. -/
theorem stored_apply (x0 : Vec Ideal S5000x2 .f32) (x1 : Vec Ideal S2x8 .f32) (p : Fin 5000) (q : Fin 8) :
    k0_pay1 x0 x1 (ix2 p q) = ∑ k : Fin 2, x0 (ix2 p k) * x1 (ix2 k q) := by
  unfold k0_pay1
  show FloatOps.matmul blockDot none (truncf (F := Ideal) .bf16 x0 bitsLt_bf16_f32) (truncf (F := Ideal) .bf16 x1 bitsLt_bf16_f32)
    (constant S5000x8 .f32 0x00000000#32) (ix2 p q) = _
  rw [Ideal.matmul_constant_zero_apply, ← Equiv.sum_comp (ValueIdx.contrEquiv1 blockDot 2 rfl rfl).symm]
  refine Finset.sum_congr rfl fun k _ => ?_
  have hk := ValueIdx.contrEquiv1_symm_val blockDot 2 rfl rfl k
  have el : blockDot.lhsIdx (ix2 p q) ((ValueIdx.contrEquiv1 blockDot 2 rfl rfl).symm k) = ix2 p k := funext fun a => Fin.ext (by
    match a with
    | ⟨0, _⟩ => exact block_lhs0 _ _
    | ⟨1, _⟩ => exact (block_lhs1 _ _).trans hk)
  have er : blockDot.rhsIdx (ix2 p q) ((ValueIdx.contrEquiv1 blockDot 2 rfl rfl).symm k) = ix2 k q := funext fun a => Fin.ext (by
    match a with
    | ⟨0, _⟩ => exact (block_rhs0 _ _).trans hk
    | ⟨1, _⟩ => exact block_rhs1 _ _)
  rw [el, er]
  rfl

/-- The index maps over the grid: the feature and output blocks are block `t` of their arrays, the weight matrix's block is the matrix. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole-array product of the region's two input arrays. -/
theorem written_back (c : Dev nD) (t : Fin cfg0.N) :
    (dat0 V c).flushed 2 t = ((cfg0.win 2).blk t).view.read (Elt Ideal) (Cert.ReferenceIdeal.Gcn.product8 (F := Ideal) (V c main_arg0) (V c main_arg2)) := by
  show (cfg0.win 2).cut (grid0.coords t) ((dat0 V c).after 2 t) = _
  rw [after0_2]
  unfold out0_2
  rw [View.canon_unit_zero zeros2]
  simp only [View.ld_unit_zero (S := S5000x2) zeros2, View.ld_unit_zero (S := S2x8) zeros2]
  obtain ⟨e0, e1, e2, e3, e4, e5⟩ := index_maps t
  funext j
  obtain ⟨p, q, rfl⟩ : ∃ (p : Fin 5000) (q : Fin 8), j = ix2 p q := ⟨j 0, j 1, eq_ix2 j⟩
  have hp : p.val < 5000 := p.isLt
  have hq : q.val < 8 := q.isLt
  have ht : t.val < 200 := t.isLt
  show k0_pay1 (iblk0 V c 0 t) (iblk0 V c 1 t) (ix2 p q)
    = Cert.ReferenceIdeal.Gcn.product8 (F := Ideal) (V c main_arg0) (V c main_arg2) (((cfg0.win 2).blk t).view.emb (ix2 p q))
  have hout : ((cfg0.win 2).blk t).view.emb (ix2 p q) = ix2 (⟨5000 * t.val + p.val, by omega⟩ : Fin 1000000) q := by
    funext a; apply Fin.ext
    match a with
    | ⟨0, _⟩ => show win0_2.index t (0 : Fin 2) * 5000 + 1 * p.val = 5000 * t.val + p.val; omega
    | ⟨1, _⟩ => show win0_2.index t (1 : Fin 2) * 8 + 1 * q.val = q.val; omega
  rw [hout, product_apply, stored_apply]
  refine Finset.sum_congr rfl fun k _ => ?_
  have hk : k.val < 2 := k.isLt
  have h0 : iblk0 V c 0 t (ix2 p k) = V c main_arg0 (ix2 (⟨5000 * t.val + p.val, by omega⟩ : Fin 1000000) k) := by
    unfold iblk0
    rw [View.read_apply]
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = 5000 * t.val + p.val; omega
    | ⟨1, _⟩ => show win0_0.index t (1 : Fin 2) * 2 + 1 * k.val = k.val; omega
  have h1 : iblk0 V c 1 t (ix2 k q) = V c main_arg2 (ix2 k q) := by
    unfold iblk0
    rw [View.read_apply]
    show V c main_arg2 (((cfg0.win 1).blk t).view.emb (ix2 k q)) = _
    refine congrArg (V c main_arg2) (funext fun a => Fin.ext ?_)
    match a with
    | ⟨0, _⟩ => show win0_1.index t (0 : Fin 2) * 2 + 1 * k.val = k.val; omega
    | ⟨1, _⟩ => show win0_1.index t (1 : Fin 2) * 8 + 1 * q.val = q.val; omega
  rw [h0, h1]

/-- Row `r` of the output array lies in the block of point `r / 5000`. -/
theorem covered (i : S1000000x8.Idx) :
    ∃ t : Fin cfg0.N, (cfg0.win 2).flush t = true ∧ i ∈ ((cfg0.win 2).blk t).view.set := by
  have hi0 : (i 0).val < 1000000 := (i 0).isLt
  have hi1 : (i 1).val < 8 := (i 1).isLt
  let t : Fin cfg0.N := ⟨(i 0).val / 5000, by show (i 0).val / 5000 < 200; omega⟩
  obtain ⟨e0, e1, e2, e3, e4, e5⟩ := index_maps t
  have htv : t.val = (i 0).val / 5000 := rfl
  refine ⟨t, flush0_2 t, ?_⟩
  show i ∈ ((View.whole main_v31).slice (win0_2.rect t)).set
  rw [View.set_slice_whole, Rect.mem_set_unit]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 8 ≤ (i 1).val ∧ (i 1).val < win0_2.index t (1 : Fin 2) * 8 + 8; omega

/-- After the region the output array is the host matrix product of the two input arrays as the region found them. -/
theorem value (c : Dev nD) : (dat0 V c).arrAt 2 cfg0.N = Cert.ReferenceIdeal.Gcn.product8 (F := Ideal) (V c main_arg0) (V c main_arg2) :=
  (dat0 V c).arrAt_eq_of_cover 2 (Cert.ReferenceIdeal.Gcn.product8 (F := Ideal) (V c main_arg0) (V c main_arg2)) (fun t _ => written_back V c t) covered

end Cert.KernelIdeal.Product8

end
-- ==== Proof.Scaled8.lean ====
/-
  The second kernel region, read as a whole-array function.

  The region walks the [11000000, 8] array of edge messages in 2200 blocks of 5000 rows.  At block `t` the body
  loads rows `5000 t … 5000 t + 4999` of the messages and the same rows of the [11000000, 1] column of edge weights,
  multiplies every loaded row by its own weight, and the block is written back to the same rows of the output
  array.  Since the 2200 blocks tile the array, after the region the output array is, at every index `(r, q)`, the
  message at `(r, q)` times the weight at `(r, 0)`: the messages times the column broadcast along the second axis.
-/
import proofs.«102995_j13469017440589_2_alg».proof.Proof.Gen.KernelIdeal.Frame
import proofs.«102995_j13469017440589_2_alg».proof.Proof.Stages
import Idealize.ShloMosaic.Lib.Pipeline.Value
import Idealize.ShloMosaic.Lib.ValueIdx

set_option maxRecDepth 16384

noncomputable section

namespace Cert.KernelIdeal.Scaled8

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- Entry `(r, q)` of the scaled messages is the message's entry `(r, q)` times the column's entry `(r, 0)`. -/
theorem scaled_apply (g : FVec F S11000000x8 .f32) (w : FVec F S11000000x1 .f32) (r : Fin 11000000) (q : Fin 8) :
    Cert.ReferenceIdeal.Gcn.scaled8 (F := F) g w (ix2 r q) = FloatOps.mulf (g (ix2 r q)) (w (ix2 r (0 : Fin 1))) := by
  unfold Cert.ReferenceIdeal.Gcn.scaled8
  show FloatOps.mulf (g (ix2 r q)) (broadcastInDim S11000000x8 ![0, 1] Cert.ReferenceIdeal.Gen.bcast_S11000000x1_S11000000x8_0_1 w (ix2 r q)) = _
  rw [broadcastInDim_apply ![0, 1] Cert.ReferenceIdeal.Gen.bcast_S11000000x1_S11000000x8_0_1 w (ix2 r q) (ix2 r (0 : Fin 1)) (fun a => match a with
    | ⟨0, _⟩ => by show r.val = if (11000000 : Nat) = 1 then 0 else r.val; rw [if_neg (by decide)]
    | ⟨1, _⟩ => by show (0 : Nat) = if (1 : Nat) = 1 then 0 else q.val; rw [if_pos rfl])]

/-- What the body stores, at entry `(p, q)` of the block: the loaded message's entry times the loaded column's entry `(p, 0)`. -/
theorem stored_apply (x0 : Vec F S5000x8 .f32) (x1 : Vec F S5000x1 .f32) (p : Fin 5000) (q : Fin 8) :
    k1_pay1 x0 x1 (ix2 p q) = FloatOps.mulf (x0 (ix2 p q)) (x1 (ix2 p (0 : Fin 1))) := by
  unfold k1_pay1
  show FloatOps.mulf (shapeCast S5000x8 x0 shapeCasts_S5000x8_S5000x8 (ix2 p q))
    (broadcastTo S5000x8 (shapeCast S5000x1 x1 shapeCasts_S5000x1_S5000x1) broadcasts_S5000x1_S5000x8 (ix2 p q)) = _
  rw [shapeCast_self, shapeCast_self,
    broadcastTo_apply x1 broadcasts_S5000x1_S5000x8 (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else _; rw [if_pos rfl])]

/-- The index maps over the grid: each of the three blocks is block `t` of its array. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array product of the region's two input arrays. -/
theorem written_back (c : Dev nD) (t : Fin cfg1.N) :
    (dat1 V c).flushed 2 t = ((cfg1.win 2).blk t).view.read (Elt F) (Cert.ReferenceIdeal.Gcn.scaled8 (F := F) (V c main_v38) (V c main_v30)) := by
  show (cfg1.win 2).cut (grid1.coords t) ((dat1 V c).after 2 t) = _
  rw [after1_2]
  unfold out1_2
  rw [View.canon_unit_zero zeros2]
  simp only [View.ld_unit_zero (S := S5000x8) zeros2, View.ld_unit_zero (S := S5000x1) zeros2]
  obtain ⟨e0, e1, e2, e3, e4, e5⟩ := index_maps t
  funext j
  obtain ⟨p, q, rfl⟩ : ∃ (p : Fin 5000) (q : Fin 8), j = ix2 p q := ⟨j 0, j 1, eq_ix2 j⟩
  have hp : p.val < 5000 := p.isLt
  have hq : q.val < 8 := q.isLt
  have ht : t.val < 2200 := t.isLt
  show k1_pay1 (iblk1 V c 0 t) (iblk1 V c 1 t) (ix2 p q)
    = Cert.ReferenceIdeal.Gcn.scaled8 (F := F) (V c main_v38) (V c main_v30) (((cfg1.win 2).blk t).view.emb (ix2 p q))
  have hout : ((cfg1.win 2).blk t).view.emb (ix2 p q) = ix2 (⟨5000 * t.val + p.val, by omega⟩ : Fin 11000000) q := by
    funext a; apply Fin.ext
    match a with
    | ⟨0, _⟩ => show win1_2.index t (0 : Fin 2) * 5000 + 1 * p.val = 5000 * t.val + p.val; omega
    | ⟨1, _⟩ => show win1_2.index t (1 : Fin 2) * 8 + 1 * q.val = q.val; omega
  rw [hout, scaled_apply, stored_apply]
  have h0 : iblk1 V c 0 t (ix2 p q) = V c main_v38 (ix2 (⟨5000 * t.val + p.val, by omega⟩ : Fin 11000000) q) := by
    unfold iblk1
    rw [View.read_apply]
    show V c main_v38 (((cfg1.win 0).blk t).view.emb (ix2 p q)) = _
    refine congrArg (V c main_v38) (funext fun a => Fin.ext ?_)
    match a with
    | ⟨0, _⟩ => show win1_0.index t (0 : Fin 2) * 5000 + 1 * p.val = 5000 * t.val + p.val; omega
    | ⟨1, _⟩ => show win1_0.index t (1 : Fin 2) * 8 + 1 * q.val = q.val; omega
  have h1 : iblk1 V c 1 t (ix2 p (0 : Fin 1)) = V c main_v30 (ix2 (⟨5000 * t.val + p.val, by omega⟩ : Fin 11000000) (0 : Fin 1)) := by
    unfold iblk1
    rw [View.read_apply]
    show V c main_v30 (((cfg1.win 1).blk t).view.emb (ix2 p (0 : Fin 1))) = _
    refine congrArg (V c main_v30) (funext fun a => Fin.ext ?_)
    match a with
    | ⟨0, _⟩ => show win1_1.index t (0 : Fin 2) * 5000 + 1 * p.val = 5000 * t.val + p.val; omega
    | ⟨1, _⟩ => show win1_1.index t (1 : Fin 2) * 1 + 1 * 0 = 0; omega
  rw [h0, h1]

/-- Row `r` of the output array lies in the block of point `r / 5000`. -/
theorem covered (i : S11000000x8.Idx) :
    ∃ t : Fin cfg1.N, (cfg1.win 2).flush t = true ∧ i ∈ ((cfg1.win 2).blk t).view.set := by
  have hi0 : (i 0).val < 11000000 := (i 0).isLt
  have hi1 : (i 1).val < 8 := (i 1).isLt
  let t : Fin cfg1.N := ⟨(i 0).val / 5000, by show (i 0).val / 5000 < 2200; omega⟩
  obtain ⟨e0, e1, e2, e3, e4, e5⟩ := index_maps t
  have htv : t.val = (i 0).val / 5000 := rfl
  refine ⟨t, flush1_2 t, ?_⟩
  show i ∈ ((View.whole main_v39).slice (win1_2.rect t)).set
  rw [View.set_slice_whole, Rect.mem_set_unit]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 8 ≤ (i 1).val ∧ (i 1).val < win1_2.index t (1 : Fin 2) * 8 + 8; omega

/-- After the region the output array is the whole-array product of the two input arrays as the region found them. -/
theorem value (c : Dev nD) : (dat1 V c).arrAt 2 cfg1.N = Cert.ReferenceIdeal.Gcn.scaled8 (F := F) (V c main_v38) (V c main_v30) :=
  (dat1 V c).arrAt_eq_of_cover 2 (Cert.ReferenceIdeal.Gcn.scaled8 (F := F) (V c main_v38) (V c main_v30)) (fun t _ => written_back V c t) covered

end Cert.KernelIdeal.Scaled8

end
-- ==== Proof.RowPlusRelu8.lean ====
/-
  The third kernel region, read as a whole-array function.

  The region walks the [1000000, 8] array in 200 blocks of 5000 rows.  At block `t` the body loads rows
  `5000 t … 5000 t + 4999` of the input array and the one [1, 8] row, adds the row to every loaded row, takes the
  maximum with zero, and the block is written back to the same rows of the output array.  Since the 200 blocks tile
  the array, after the region the output array is, at every index `(r, q)`, `max (input (r, q) + row (0, q), 0)`.
-/
import proofs.«102995_j13469017440589_2_alg».proof.Proof.Gen.KernelIdeal.Frame
import proofs.«102995_j13469017440589_2_alg».proof.Proof.Stages
import Idealize.ShloMosaic.Lib.Pipeline.Value
import Idealize.ShloMosaic.Lib.ValueIdx

set_option maxRecDepth 16384

noncomputable section

namespace Cert.KernelIdeal.RowPlusRelu8

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- Entry `(r, q)` of the whole-array function: the array's entry plus the row's entry `(0, q)`, then the maximum with zero. -/
theorem biased_apply (y : FVec F S1000000x8 .f32) (b : FVec F S1x8 .f32) (r : Fin 1000000) (q : Fin 8) :
    Cert.ReferenceIdeal.Gcn.biasedRelu8 (F := F) y b (ix2 r q)
      = FloatOps.maximumf (FloatOps.addf (y (ix2 r q)) (b (ix2 (0 : Fin 1) q))) (FloatOps.ofBits .f32 0x00000000#32) := by
  unfold Cert.ReferenceIdeal.Gcn.biasedRelu8
  show FloatOps.maximumf (FloatOps.addf (y (ix2 r q)) (broadcastInDim S1000000x8 ![0, 1] Cert.ReferenceIdeal.Gen.bcast_S1x8_S1000000x8_0_1 b (ix2 r q)))
    (broadcastInDim S1000000x8 ![] Cert.ReferenceIdeal.Gen.bcast_S_S1000000x8 (constant (F := F) S_ .f32 0x00000000#32) (ix2 r q)) = _
  rw [broadcastInDim_apply ![0, 1] Cert.ReferenceIdeal.Gen.bcast_S1x8_S1000000x8_0_1 b (ix2 r q) (ix2 (0 : Fin 1) q) (fun a => match a with
      | ⟨0, _⟩ => by show (0 : Nat) = if (1 : Nat) = 1 then 0 else r.val; rw [if_pos rfl]
      | ⟨1, _⟩ => by show q.val = if (8 : Nat) = 1 then 0 else q.val; rw [if_neg (by decide)]),
    broadcastInDim_apply ![] Cert.ReferenceIdeal.Gen.bcast_S_S1000000x8 (constant (F := F) S_ .f32 0x00000000#32) (ix2 r q) ix0 (fun a => a.elim0)]
  rfl

/-- What the body stores, at entry `(p, q)` of the block: the loaded block's entry plus the row's entry `(0, q)`, then the maximum with zero. -/
theorem stored_apply (x0 : Vec F S5000x8 .f32) (x1 : Vec F S1x8 .f32) (p : Fin 5000) (q : Fin 8) :
    k2_pay1 x0 x1 (ix2 p q)
      = FloatOps.maximumf (FloatOps.addf (x0 (ix2 p q)) (x1 (ix2 (0 : Fin 1) q))) (FloatOps.ofBits .f32 0x00000000#32) := by
  unfold k2_pay1
  show FloatOps.maximumf (FloatOps.addf (shapeCast S5000x8 x0 shapeCasts_S5000x8_S5000x8 (ix2 p q))
    (broadcastTo S5000x8 (shapeCast S1x8 x1 shapeCasts_S1x8_S1x8) broadcasts_S1x8_S5000x8 (ix2 p q))) (FloatOps.ofBits .f32 0x00000000#32) = _
  rw [shapeCast_self, shapeCast_self,
    broadcastTo_apply x1 broadcasts_S1x8_S5000x8 (ix2 p q) (ix2 (0 : Fin 1) q) (fun a => match a with
      | ⟨0, _⟩ => by show (0 : Nat) = if (1 : Nat) = 1 then 0 else _; rw [if_pos rfl]
      | ⟨1, _⟩ => by show q.val = if (8 : Nat) = 1 then 0 else q.val; rw [if_neg (by decide)])]

/-- The index maps over the grid: the input and output blocks are block `t` of their arrays, the row's block is the row. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole-array sum of the region's two input arrays. -/
theorem written_back (c : Dev nD) (t : Fin cfg2.N) :
    (dat2 V c).flushed 2 t = ((cfg2.win 2).blk t).view.read (Elt F) (Cert.ReferenceIdeal.Gcn.biasedRelu8 (F := F) (V c main_v42) (V c main_v43)) := by
  show (cfg2.win 2).cut (grid2.coords t) ((dat2 V c).after 2 t) = _
  rw [after2_2]
  unfold out2_2
  rw [View.canon_unit_zero zeros2]
  simp only [View.ld_unit_zero (S := S5000x8) zeros2, View.ld_unit_zero (S := S1x8) zeros2]
  obtain ⟨e0, e1, e2, e3, e4, e5⟩ := index_maps t
  funext j
  obtain ⟨p, q, rfl⟩ : ∃ (p : Fin 5000) (q : Fin 8), j = ix2 p q := ⟨j 0, j 1, eq_ix2 j⟩
  have hp : p.val < 5000 := p.isLt
  have hq : q.val < 8 := q.isLt
  have ht : t.val < 200 := t.isLt
  show k2_pay1 (iblk2 V c 0 t) (iblk2 V c 1 t) (ix2 p q)
    = Cert.ReferenceIdeal.Gcn.biasedRelu8 (F := F) (V c main_v42) (V c main_v43) (((cfg2.win 2).blk t).view.emb (ix2 p q))
  have hout : ((cfg2.win 2).blk t).view.emb (ix2 p q) = ix2 (⟨5000 * t.val + p.val, by omega⟩ : Fin 1000000) q := by
    funext a; apply Fin.ext
    match a with
    | ⟨0, _⟩ => show win2_2.index t (0 : Fin 2) * 5000 + 1 * p.val = 5000 * t.val + p.val; omega
    | ⟨1, _⟩ => show win2_2.index t (1 : Fin 2) * 8 + 1 * q.val = q.val; omega
  rw [hout, biased_apply, stored_apply]
  have h0 : iblk2 V c 0 t (ix2 p q) = V c main_v42 (ix2 (⟨5000 * t.val + p.val, by omega⟩ : Fin 1000000) q) := by
    unfold iblk2
    rw [View.read_apply]
    show V c main_v42 (((cfg2.win 0).blk t).view.emb (ix2 p q)) = _
    refine congrArg (V c main_v42) (funext fun a => Fin.ext ?_)
    match a with
    | ⟨0, _⟩ => show win2_0.index t (0 : Fin 2) * 5000 + 1 * p.val = 5000 * t.val + p.val; omega
    | ⟨1, _⟩ => show win2_0.index t (1 : Fin 2) * 8 + 1 * q.val = q.val; omega
  have h1 : iblk2 V c 1 t (ix2 (0 : Fin 1) q) = V c main_v43 (ix2 (0 : Fin 1) q) := by
    unfold iblk2
    rw [View.read_apply]
    show V c main_v43 (((cfg2.win 1).blk t).view.emb (ix2 (0 : Fin 1) q)) = _
    refine congrArg (V c main_v43) (funext fun a => Fin.ext ?_)
    match a with
    | ⟨0, _⟩ => show win2_1.index t (0 : Fin 2) * 1 + 1 * 0 = 0; omega
    | ⟨1, _⟩ => show win2_1.index t (1 : Fin 2) * 8 + 1 * q.val = q.val; omega
  rw [h0, h1]

/-- Row `r` of the output array lies in the block of point `r / 5000`. -/
theorem covered (i : S1000000x8.Idx) :
    ∃ t : Fin cfg2.N, (cfg2.win 2).flush t = true ∧ i ∈ ((cfg2.win 2).blk t).view.set := by
  have hi0 : (i 0).val < 1000000 := (i 0).isLt
  have hi1 : (i 1).val < 8 := (i 1).isLt
  let t : Fin cfg2.N := ⟨(i 0).val / 5000, by show (i 0).val / 5000 < 200; omega⟩
  obtain ⟨e0, e1, e2, e3, e4, e5⟩ := index_maps t
  have htv : t.val = (i 0).val / 5000 := rfl
  refine ⟨t, flush2_2 t, ?_⟩
  show i ∈ ((View.whole main_v44).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 8 ≤ (i 1).val ∧ (i 1).val < win2_2.index t (1 : Fin 2) * 8 + 8; omega

/-- After the region the output array is the whole-array sum of the two input arrays as the region found them. -/
theorem value (c : Dev nD) : (dat2 V c).arrAt 2 cfg2.N = Cert.ReferenceIdeal.Gcn.biasedRelu8 (F := F) (V c main_v42) (V c main_v43) :=
  (dat2 V c).arrAt_eq_of_cover 2 (Cert.ReferenceIdeal.Gcn.biasedRelu8 (F := F) (V c main_v42) (V c main_v43)) (fun t _ => written_back V c t) covered

end Cert.KernelIdeal.RowPlusRelu8

end
-- ==== Proof.Product2.lean ====
/-
  The fourth kernel region, read as a whole-array function, at the exact extended reals.

  The region walks the [1000000, 8] array of node features in 200 blocks of 5000 rows.  At block `t` the body loads
  rows `5000 t … 5000 t + 4999` of the features and the whole [8, 2] weight matrix, multiplies them on the matrix
  unit into a zero accumulator, and the [5000, 2] product is written back to the same rows of the output array.  At
  the exact extended reals a change of float format is the identity and the matrix unit's product into zero is the
  plain sum `Σ_k x (p, k) · W (k, q)`; a host matrix product is the same sum.  Since the 200 blocks tile the array,
  after the region the output array is the host matrix product of the whole feature array and the weight matrix.
-/
import proofs.«102995_j13469017440589_2_alg».proof.Proof.Gen.KernelIdeal.Frame
import proofs.«102995_j13469017440589_2_alg».proof.Proof.Stages
import Idealize.ShloMosaic.Lib.Pipeline.Value
import Idealize.ShloMosaic.Lib.ValueIdx
import Idealize.ShloMosaic.PureOps.Ideal.Laws

set_option maxRecDepth 16384

noncomputable section

namespace Cert.KernelIdeal.Product2

open Cert.KernelIdeal Cert.KernelIdeal.Gen
open Idealize.ShloMosaic Idealize.ShloMosaic.TcCoe Idealize.SL.Sem Idealize.ShloMosaic.ValueIdx
open Idealize.ShloMosaic.Pipeline (Dat Cfg Window)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- The dimension record of the whole-array product. -/
abbrev wholeDot := Cert.ReferenceIdeal.dot_S1000000x8_S8x2_S1000000x2_1_0_0_1_n_n
/-- The dimension record of one block's product. -/
abbrev blockDot := dot_S5000x8_S8x2_S5000x2_1_0_0_1_n_n

/-! ## The operand indices of the two products: rows by the output's row, columns by the output's column, the
    contracted axis by the summation index -/

theorem whole_lhs0 (i : S1000000x2.Idx) (s : wholeDot.contr.Idx) : (wholeDot.lhsIdx i s 0).val = (i 0).val := by
  unfold DotDims.lhsIdx
  rw [dif_neg (show ¬(0 : Fin S1000000x8.rank) ∈ wholeDot.lhsBatch by decide), dif_pos (show (0 : Fin S1000000x8.rank) ∈ wholeDot.lhsNonContracting by decide)]
  rfl
theorem whole_lhs1 (i : S1000000x2.Idx) (s : wholeDot.contr.Idx) : (wholeDot.lhsIdx i s 1).val = (s ⟨0, by decide⟩).val :=
  wholeDot.lhsIdx_val_of_single rfl i s
theorem whole_rhs0 (i : S1000000x2.Idx) (s : wholeDot.contr.Idx) : (wholeDot.rhsIdx i s 0).val = (s ⟨0, by decide⟩).val :=
  wholeDot.rhsIdx_val_of_single rfl i s
theorem whole_rhs1 (i : S1000000x2.Idx) (s : wholeDot.contr.Idx) : (wholeDot.rhsIdx i s 1).val = (i 1).val := by
  unfold DotDims.rhsIdx
  rw [dif_neg (show ¬(1 : Fin S8x2.rank) ∈ wholeDot.rhsBatch by decide), dif_pos (show (1 : Fin S8x2.rank) ∈ wholeDot.rhsNonContracting by decide)]
  rfl

theorem block_lhs0 (i : S5000x2.Idx) (s : blockDot.contr.Idx) : (blockDot.lhsIdx i s 0).val = (i 0).val := by
  unfold DotDims.lhsIdx
  rw [dif_neg (show ¬(0 : Fin S5000x8.rank) ∈ blockDot.lhsBatch by decide), dif_pos (show (0 : Fin S5000x8.rank) ∈ blockDot.lhsNonContracting by decide)]
  rfl
theorem block_lhs1 (i : S5000x2.Idx) (s : blockDot.contr.Idx) : (blockDot.lhsIdx i s 1).val = (s ⟨0, by decide⟩).val :=
  blockDot.lhsIdx_val_of_single rfl i s
theorem block_rhs0 (i : S5000x2.Idx) (s : blockDot.contr.Idx) : (blockDot.rhsIdx i s 0).val = (s ⟨0, by decide⟩).val :=
  blockDot.rhsIdx_val_of_single rfl i s
theorem block_rhs1 (i : S5000x2.Idx) (s : blockDot.contr.Idx) : (blockDot.rhsIdx i s 1).val = (i 1).val := by
  unfold DotDims.rhsIdx
  rw [dif_neg (show ¬(1 : Fin S8x2.rank) ∈ blockDot.rhsBatch by decide), dif_pos (show (1 : Fin S8x2.rank) ∈ blockDot.rhsNonContracting by decide)]
  rfl

/-- Entry `(r, q)` of the whole-array product is `Σ_k x (r, k) · W (k, q)`. -/
theorem product_apply (x : FVec Ideal S1000000x8 .f32) (W : FVec Ideal S8x2 .f32) (r : Fin 1000000) (q : Fin 2) :
    Cert.ReferenceIdeal.Gcn.product2 (F := Ideal) x W (ix2 r q) = ∑ k : Fin 8, x (ix2 r k) * W (ix2 k q) := by
  unfold Cert.ReferenceIdeal.Gcn.product2
  simp only [Host.dotGeneral]
  rw [Ideal.dotGeneral_apply, ← Equiv.sum_comp (ValueIdx.contrEquiv1 wholeDot 8 rfl rfl).symm]
  refine Finset.sum_congr rfl fun k _ => ?_
  have hk := ValueIdx.contrEquiv1_symm_val wholeDot 8 rfl rfl k
  have el : wholeDot.lhsIdx (ix2 r q) ((ValueIdx.contrEquiv1 wholeDot 8 rfl rfl).symm k) = ix2 r k := funext fun a => Fin.ext (by
    match a with
    | ⟨0, _⟩ => exact whole_lhs0 _ _
    | ⟨1, _⟩ => exact (whole_lhs1 _ _).trans hk)
  have er : wholeDot.rhsIdx (ix2 r q) ((ValueIdx.contrEquiv1 wholeDot 8 rfl rfl).symm k) = ix2 k q := funext fun a => Fin.ext (by
    match a with
    | ⟨0, _⟩ => exact (whole_rhs0 _ _).trans hk
    | ⟨1, _⟩ => exact whole_rhs1 _ _)
  rw [el, er]

/-- What the body stores, at entry `(p, q)` of the block: `Σ_k x0 (p, k) · x1 (k, q)` of the two loaded blocks. -/
theorem stored_apply (x0 : Vec Ideal S5000x8 .f32) (x1 : Vec Ideal S8x2 .f32) (p : Fin 5000) (q : Fin 2) :
    k3_pay1 x0 x1 (ix2 p q) = ∑ k : Fin 8, x0 (ix2 p k) * x1 (ix2 k q) := by
  unfold k3_pay1
  show FloatOps.matmul blockDot none (truncf (F := Ideal) .bf16 (shapeCast S5000x8 x0 shapeCasts_S5000x8_S5000x8) bitsLt_bf16_f32) (truncf (F := Ideal) .bf16 x1 bitsLt_bf16_f32)
    (constant S5000x2 .f32 0x00000000#32) (ix2 p q) = _
  rw [shapeCast_self]
  rw [Ideal.matmul_constant_zero_apply, ← Equiv.sum_comp (ValueIdx.contrEquiv1 blockDot 8 rfl rfl).symm]
  refine Finset.sum_congr rfl fun k _ => ?_
  have hk := ValueIdx.contrEquiv1_symm_val blockDot 8 rfl rfl k
  have el : blockDot.lhsIdx (ix2 p q) ((ValueIdx.contrEquiv1 blockDot 8 rfl rfl).symm k) = ix2 p k := funext fun a => Fin.ext (by
    match a with
    | ⟨0, _⟩ => exact block_lhs0 _ _
    | ⟨1, _⟩ => exact (block_lhs1 _ _).trans hk)
  have er : blockDot.rhsIdx (ix2 p q) ((ValueIdx.contrEquiv1 blockDot 8 rfl rfl).symm k) = ix2 k q := funext fun a => Fin.ext (by
    match a with
    | ⟨0, _⟩ => exact (block_rhs0 _ _).trans hk
    | ⟨1, _⟩ => exact block_rhs1 _ _)
  rw [el, er]
  rfl

/-- The index maps over the grid: the feature and output blocks are block `t` of their arrays, the weight matrix's block is the matrix. -/
theorem index_maps : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole-array product of the region's two input arrays. -/
theorem written_back (c : Dev nD) (t : Fin cfg3.N) :
    (dat3 V c).flushed 2 t = ((cfg3.win 2).blk t).view.read (Elt Ideal) (Cert.ReferenceIdeal.Gcn.product2 (F := Ideal) (V c main_v44) (V c main_arg4)) := by
  show (cfg3.win 2).cut (grid3.coords t) ((dat3 V c).after 2 t) = _
  rw [after3_2]
  unfold out3_2
  rw [View.canon_unit_zero zeros2]
  simp only [View.ld_unit_zero (S := S5000x8) zeros2, View.ld_unit_zero (S := S8x2) zeros2]
  obtain ⟨e0, e1, e2, e3, e4, e5⟩ := index_maps t
  funext j
  obtain ⟨p, q, rfl⟩ : ∃ (p : Fin 5000) (q : Fin 2), j = ix2 p q := ⟨j 0, j 1, eq_ix2 j⟩
  have hp : p.val < 5000 := p.isLt
  have hq : q.val < 2 := q.isLt
  have ht : t.val < 200 := t.isLt
  show k3_pay1 (iblk3 V c 0 t) (iblk3 V c 1 t) (ix2 p q)
    = Cert.ReferenceIdeal.Gcn.product2 (F := Ideal) (V c main_v44) (V c main_arg4) (((cfg3.win 2).blk t).view.emb (ix2 p q))
  have hout : ((cfg3.win 2).blk t).view.emb (ix2 p q) = ix2 (⟨5000 * t.val + p.val, by omega⟩ : Fin 1000000) q := by
    funext a; apply Fin.ext
    match a with
    | ⟨0, _⟩ => show win3_2.index t (0 : Fin 2) * 5000 + 1 * p.val = 5000 * t.val + p.val; omega
    | ⟨1, _⟩ => show win3_2.index t (1 : Fin 2) * 2 + 1 * q.val = q.val; omega
  rw [hout, product_apply, stored_apply]
  refine Finset.sum_congr rfl fun k _ => ?_
  have hk : k.val < 8 := k.isLt
  have h0 : iblk3 V c 0 t (ix2 p k) = V c main_v44 (ix2 (⟨5000 * t.val + p.val, by omega⟩ : Fin 1000000) k) := by
    unfold iblk3
    rw [View.read_apply]
    show V c main_v44 (((cfg3.win 0).blk t).view.emb (ix2 p k)) = _
    refine congrArg (V c main_v44) (funext fun a => Fin.ext ?_)
    match a with
    | ⟨0, _⟩ => show win3_0.index t (0 : Fin 2) * 5000 + 1 * p.val = 5000 * t.val + p.val; omega
    | ⟨1, _⟩ => show win3_0.index t (1 : Fin 2) * 8 + 1 * k.val = k.val; omega
  have h1 : iblk3 V c 1 t (ix2 k q) = V c main_arg4 (ix2 k q) := by
    unfold iblk3
    rw [View.read_apply]
    show V c main_arg4 (((cfg3.win 1).blk t).view.emb (ix2 k q)) = _
    refine congrArg (V c main_arg4) (funext fun a => Fin.ext ?_)
    match a with
    | ⟨0, _⟩ => show win3_1.index t (0 : Fin 2) * 8 + 1 * k.val = k.val; omega
    | ⟨1, _⟩ => show win3_1.index t (1 : Fin 2) * 2 + 1 * q.val = q.val; omega
  rw [h0, h1]

/-- Row `r` of the output array lies in the block of point `r / 5000`. -/
theorem covered (i : S1000000x2.Idx) :
    ∃ t : Fin cfg3.N, (cfg3.win 2).flush t = true ∧ i ∈ ((cfg3.win 2).blk t).view.set := by
  have hi0 : (i 0).val < 1000000 := (i 0).isLt
  have hi1 : (i 1).val < 2 := (i 1).isLt
  let t : Fin cfg3.N := ⟨(i 0).val / 5000, by show (i 0).val / 5000 < 200; omega⟩
  obtain ⟨e0, e1, e2, e3, e4, e5⟩ := index_maps t
  have htv : t.val = (i 0).val / 5000 := rfl
  refine ⟨t, flush3_2 t, ?_⟩
  show i ∈ ((View.whole main_v45).slice (win3_2.rect t)).set
  rw [View.set_slice_whole, Rect.mem_set_unit]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 2 ≤ (i 1).val ∧ (i 1).val < win3_2.index t (1 : Fin 2) * 2 + 2; omega

/-- After the region the output array is the host matrix product of the two input arrays as the region found them. -/
theorem value (c : Dev nD) : (dat3 V c).arrAt 2 cfg3.N = Cert.ReferenceIdeal.Gcn.product2 (F := Ideal) (V c main_v44) (V c main_arg4) :=
  (dat3 V c).arrAt_eq_of_cover 2 (Cert.ReferenceIdeal.Gcn.product2 (F := Ideal) (V c main_v44) (V c main_arg4)) (fun t _ => written_back V c t) covered

end Cert.KernelIdeal.Product2

end
-- ==== Proof.Scaled2.lean ====
/-
  The fifth kernel region, read as a whole-array function.

  The region walks the [11000000, 2] array of edge messages in 2200 blocks of 5000 rows.  At block `t` the body
  loads rows `5000 t … 5000 t + 4999` of the messages and the same rows of the [11000000, 1] column of edge weights,
  multiplies every loaded row by its own weight, and the block is written back to the same rows of the output
  array.  Since the 2200 blocks tile the array, after the region the output array is, at every index `(r, q)`, the
  message at `(r, q)` times the weight at `(r, 0)`: the messages times the column broadcast along the second axis.
-/
import proofs.«102995_j13469017440589_2_alg».proof.Proof.Gen.KernelIdeal.Frame
import proofs.«102995_j13469017440589_2_alg».proof.Proof.Stages
import Idealize.ShloMosaic.Lib.Pipeline.Value
import Idealize.ShloMosaic.Lib.ValueIdx

set_option maxRecDepth 16384

noncomputable section

namespace Cert.KernelIdeal.Scaled2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- Entry `(r, q)` of the scaled messages is the message's entry `(r, q)` times the column's entry `(r, 0)`. -/
theorem scaled_apply (g : FVec F S11000000x2 .f32) (w : FVec F S11000000x1 .f32) (r : Fin 11000000) (q : Fin 2) :
    Cert.ReferenceIdeal.Gcn.scaled2 (F := F) g w (ix2 r q) = FloatOps.mulf (g (ix2 r q)) (w (ix2 r (0 : Fin 1))) := by
  unfold Cert.ReferenceIdeal.Gcn.scaled2
  show FloatOps.mulf (g (ix2 r q)) (broadcastInDim S11000000x2 ![0, 1] Cert.ReferenceIdeal.Gen.bcast_S11000000x1_S11000000x2_0_1 w (ix2 r q)) = _
  rw [broadcastInDim_apply ![0, 1] Cert.ReferenceIdeal.Gen.bcast_S11000000x1_S11000000x2_0_1 w (ix2 r q) (ix2 r (0 : Fin 1)) (fun a => match a with
    | ⟨0, _⟩ => by show r.val = if (11000000 : Nat) = 1 then 0 else r.val; rw [if_neg (by decide)]
    | ⟨1, _⟩ => by show (0 : Nat) = if (1 : Nat) = 1 then 0 else q.val; rw [if_pos rfl])]

/-- What the body stores, at entry `(p, q)` of the block: the loaded message's entry times the loaded column's entry `(p, 0)`. -/
theorem stored_apply (x0 : Vec F S5000x2 .f32) (x1 : Vec F S5000x1 .f32) (p : Fin 5000) (q : Fin 2) :
    k4_pay1 x0 x1 (ix2 p q) = FloatOps.mulf (x0 (ix2 p q)) (x1 (ix2 p (0 : Fin 1))) := by
  unfold k4_pay1
  show FloatOps.mulf (shapeCast S5000x2 x0 shapeCasts_S5000x2_S5000x2 (ix2 p q))
    (broadcastTo S5000x2 (shapeCast S5000x1 x1 shapeCasts_S5000x1_S5000x1) broadcasts_S5000x1_S5000x2 (ix2 p q)) = _
  rw [shapeCast_self, shapeCast_self,
    broadcastTo_apply x1 broadcasts_S5000x1_S5000x2 (ix2 p q) (ix2 p (0 : Fin 1)) (fun a => match a with
      | ⟨0, _⟩ => by show p.val = if (5000 : Nat) = 1 then 0 else p.val; rw [if_neg (by decide)]
      | ⟨1, _⟩ => by show (0 : Nat) = if (1 : Nat) = 1 then 0 else _; rw [if_pos rfl])]

/-- The index maps over the grid: each of the three blocks is block `t` of its array. -/
theorem index_maps : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole-array product of the region's two input arrays. -/
theorem written_back (c : Dev nD) (t : Fin cfg4.N) :
    (dat4 V c).flushed 2 t = ((cfg4.win 2).blk t).view.read (Elt F) (Cert.ReferenceIdeal.Gcn.scaled2 (F := F) (V c main_v52) (V c main_v30)) := by
  show (cfg4.win 2).cut (grid4.coords t) ((dat4 V c).after 2 t) = _
  rw [after4_2]
  unfold out4_2
  rw [View.canon_unit_zero zeros2]
  simp only [View.ld_unit_zero (S := S5000x2) zeros2, View.ld_unit_zero (S := S5000x1) zeros2]
  obtain ⟨e0, e1, e2, e3, e4, e5⟩ := index_maps t
  funext j
  obtain ⟨p, q, rfl⟩ : ∃ (p : Fin 5000) (q : Fin 2), j = ix2 p q := ⟨j 0, j 1, eq_ix2 j⟩
  have hp : p.val < 5000 := p.isLt
  have hq : q.val < 2 := q.isLt
  have ht : t.val < 2200 := t.isLt
  show k4_pay1 (iblk4 V c 0 t) (iblk4 V c 1 t) (ix2 p q)
    = Cert.ReferenceIdeal.Gcn.scaled2 (F := F) (V c main_v52) (V c main_v30) (((cfg4.win 2).blk t).view.emb (ix2 p q))
  have hout : ((cfg4.win 2).blk t).view.emb (ix2 p q) = ix2 (⟨5000 * t.val + p.val, by omega⟩ : Fin 11000000) q := by
    funext a; apply Fin.ext
    match a with
    | ⟨0, _⟩ => show win4_2.index t (0 : Fin 2) * 5000 + 1 * p.val = 5000 * t.val + p.val; omega
    | ⟨1, _⟩ => show win4_2.index t (1 : Fin 2) * 2 + 1 * q.val = q.val; omega
  rw [hout, scaled_apply, stored_apply]
  have h0 : iblk4 V c 0 t (ix2 p q) = V c main_v52 (ix2 (⟨5000 * t.val + p.val, by omega⟩ : Fin 11000000) q) := by
    unfold iblk4
    rw [View.read_apply]
    show V c main_v52 (((cfg4.win 0).blk t).view.emb (ix2 p q)) = _
    refine congrArg (V c main_v52) (funext fun a => Fin.ext ?_)
    match a with
    | ⟨0, _⟩ => show win4_0.index t (0 : Fin 2) * 5000 + 1 * p.val = 5000 * t.val + p.val; omega
    | ⟨1, _⟩ => show win4_0.index t (1 : Fin 2) * 2 + 1 * q.val = q.val; omega
  have h1 : iblk4 V c 1 t (ix2 p (0 : Fin 1)) = V c main_v30 (ix2 (⟨5000 * t.val + p.val, by omega⟩ : Fin 11000000) (0 : Fin 1)) := by
    unfold iblk4
    rw [View.read_apply]
    show V c main_v30 (((cfg4.win 1).blk t).view.emb (ix2 p (0 : Fin 1))) = _
    refine congrArg (V c main_v30) (funext fun a => Fin.ext ?_)
    match a with
    | ⟨0, _⟩ => show win4_1.index t (0 : Fin 2) * 5000 + 1 * p.val = 5000 * t.val + p.val; omega
    | ⟨1, _⟩ => show win4_1.index t (1 : Fin 2) * 1 + 1 * 0 = 0; omega
  rw [h0, h1]

/-- Row `r` of the output array lies in the block of point `r / 5000`. -/
theorem covered (i : S11000000x2.Idx) :
    ∃ t : Fin cfg4.N, (cfg4.win 2).flush t = true ∧ i ∈ ((cfg4.win 2).blk t).view.set := by
  have hi0 : (i 0).val < 11000000 := (i 0).isLt
  have hi1 : (i 1).val < 2 := (i 1).isLt
  let t : Fin cfg4.N := ⟨(i 0).val / 5000, by show (i 0).val / 5000 < 2200; omega⟩
  obtain ⟨e0, e1, e2, e3, e4, e5⟩ := index_maps t
  have htv : t.val = (i 0).val / 5000 := rfl
  refine ⟨t, flush4_2 t, ?_⟩
  show i ∈ ((View.whole main_v53).slice (win4_2.rect t)).set
  rw [View.set_slice_whole, Rect.mem_set_unit]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 2 ≤ (i 1).val ∧ (i 1).val < win4_2.index t (1 : Fin 2) * 2 + 2; omega

/-- After the region the output array is the whole-array product of the two input arrays as the region found them. -/
theorem value (c : Dev nD) : (dat4 V c).arrAt 2 cfg4.N = Cert.ReferenceIdeal.Gcn.scaled2 (F := F) (V c main_v52) (V c main_v30) :=
  (dat4 V c).arrAt_eq_of_cover 2 (Cert.ReferenceIdeal.Gcn.scaled2 (F := F) (V c main_v52) (V c main_v30)) (fun t _ => written_back V c t) covered

end Cert.KernelIdeal.Scaled2

end
-- ==== Proof.RowPlus2.lean ====
/-
  The last kernel region, read as a whole-array function.

  The region walks the [1000000, 2] array in 200 blocks of 5000 rows.  At block `t` the body loads rows
  `5000 t … 5000 t + 4999` of the input array and the one [1, 2] row, adds the row to every loaded row, and the
  block is written back to the same rows of the output array.  Since the 200 blocks tile the array, after the
  region the output array is, at every index `(r, q)`, the input at `(r, q)` plus the row at `(0, q)`: the sum of
  the input array and the row broadcast along the first axis.
-/
import proofs.«102995_j13469017440589_2_alg».proof.Proof.Gen.KernelIdeal.Frame
import proofs.«102995_j13469017440589_2_alg».proof.Proof.Stages
import Idealize.ShloMosaic.Lib.Pipeline.Value
import Idealize.ShloMosaic.Lib.ValueIdx

set_option maxRecDepth 16384

noncomputable section

namespace Cert.KernelIdeal.RowPlus2

open Cert.KernelIdeal Cert.KernelIdeal.Gen
open Idealize.ShloMosaic Idealize.ShloMosaic.TcCoe Idealize.SL.Sem Idealize.ShloMosaic.ValueIdx
open Idealize.ShloMosaic.Pipeline (Dat Cfg Window)

variable {F : FTy → Type} [FloatOps F]
variable (V : (c : Dev nD) → (b : Ref sig .tc) → Buf (Elt F) ((c : Thread nD τ).loc b))

theorem zeros2 : (![0, 0] : Fin 2 → Nat) = fun _ => 0 := funext fun a => by fin_cases a <;> rfl

/-- Entry `(r, q)` of the sum is entry `(r, q)` of the array plus entry `(0, q)` of the row. -/
theorem biased_apply (y : FVec F S1000000x2 .f32) (b : FVec F S1x2 .f32) (r : Fin 1000000) (q : Fin 2) :
    Cert.ReferenceIdeal.Gcn.biased2 (F := F) y b (ix2 r q) = FloatOps.addf (y (ix2 r q)) (b (ix2 (0 : Fin 1) q)) := by
  unfold Cert.ReferenceIdeal.Gcn.biased2
  show FloatOps.addf (y (ix2 r q)) (broadcastInDim S1000000x2 ![0, 1] Cert.ReferenceIdeal.Gen.bcast_S1x2_S1000000x2_0_1 b (ix2 r q)) = _
  rw [broadcastInDim_apply ![0, 1] Cert.ReferenceIdeal.Gen.bcast_S1x2_S1000000x2_0_1 b (ix2 r q) (ix2 (0 : Fin 1) q) (fun a => match a with
    | ⟨0, _⟩ => by show (0 : Nat) = if (1 : Nat) = 1 then 0 else r.val; rw [if_pos rfl]
    | ⟨1, _⟩ => by show q.val = if (2 : Nat) = 1 then 0 else q.val; rw [if_neg (by decide)])]

/-- What the body stores, at entry `(p, q)` of the block: the loaded block's entry plus the row's entry `(0, q)`. -/
theorem stored_apply (x0 : Vec F S5000x2 .f32) (x1 : Vec F S1x2 .f32) (p : Fin 5000) (q : Fin 2) :
    k5_pay1 x0 x1 (ix2 p q) = FloatOps.addf (x0 (ix2 p q)) (x1 (ix2 (0 : Fin 1) q)) := by
  unfold k5_pay1
  show FloatOps.addf (shapeCast S5000x2 x0 shapeCasts_S5000x2_S5000x2 (ix2 p q))
    (broadcastTo S5000x2 (shapeCast S1x2 x1 shapeCasts_S1x2_S1x2) broadcasts_S1x2_S5000x2 (ix2 p q)) = _
  rw [shapeCast_self, shapeCast_self,
    broadcastTo_apply x1 broadcasts_S1x2_S5000x2 (ix2 p q) (ix2 (0 : Fin 1) q) (fun a => match a with
      | ⟨0, _⟩ => by show (0 : Nat) = if (1 : Nat) = 1 then 0 else _; rw [if_pos rfl]
      | ⟨1, _⟩ => by show q.val = if (2 : Nat) = 1 then 0 else q.val; rw [if_neg (by decide)])]

/-- The index maps over the grid: the input and output blocks are block `t` of their arrays, the row's block is the row. -/
theorem index_maps : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the whole-array sum of the region's two input arrays. -/
theorem written_back (c : Dev nD) (t : Fin cfg5.N) :
    (dat5 V c).flushed 2 t = ((cfg5.win 2).blk t).view.read (Elt F) (Cert.ReferenceIdeal.Gcn.biased2 (F := F) (V c main_v56) (V c main_v57)) := by
  show (cfg5.win 2).cut (grid5.coords t) ((dat5 V c).after 2 t) = _
  rw [after5_2]
  unfold out5_2
  rw [View.canon_unit_zero zeros2]
  simp only [View.ld_unit_zero (S := S5000x2) zeros2, View.ld_unit_zero (S := S1x2) zeros2]
  obtain ⟨e0, e1, e2, e3, e4, e5⟩ := index_maps t
  funext j
  obtain ⟨p, q, rfl⟩ : ∃ (p : Fin 5000) (q : Fin 2), j = ix2 p q := ⟨j 0, j 1, eq_ix2 j⟩
  have hp : p.val < 5000 := p.isLt
  have hq : q.val < 2 := q.isLt
  have ht : t.val < 200 := t.isLt
  show k5_pay1 (iblk5 V c 0 t) (iblk5 V c 1 t) (ix2 p q)
    = Cert.ReferenceIdeal.Gcn.biased2 (F := F) (V c main_v56) (V c main_v57) (((cfg5.win 2).blk t).view.emb (ix2 p q))
  have hout : ((cfg5.win 2).blk t).view.emb (ix2 p q) = ix2 (⟨5000 * t.val + p.val, by omega⟩ : Fin 1000000) q := by
    funext a; apply Fin.ext
    match a with
    | ⟨0, _⟩ => show win5_2.index t (0 : Fin 2) * 5000 + 1 * p.val = 5000 * t.val + p.val; omega
    | ⟨1, _⟩ => show win5_2.index t (1 : Fin 2) * 2 + 1 * q.val = q.val; omega
  rw [hout, biased_apply, stored_apply]
  have h0 : iblk5 V c 0 t (ix2 p q) = V c main_v56 (ix2 (⟨5000 * t.val + p.val, by omega⟩ : Fin 1000000) q) := by
    unfold iblk5
    rw [View.read_apply]
    show V c main_v56 (((cfg5.win 0).blk t).view.emb (ix2 p q)) = _
    refine congrArg (V c main_v56) (funext fun a => Fin.ext ?_)
    match a with
    | ⟨0, _⟩ => show win5_0.index t (0 : Fin 2) * 5000 + 1 * p.val = 5000 * t.val + p.val; omega
    | ⟨1, _⟩ => show win5_0.index t (1 : Fin 2) * 2 + 1 * q.val = q.val; omega
  have h1 : iblk5 V c 1 t (ix2 (0 : Fin 1) q) = V c main_v57 (ix2 (0 : Fin 1) q) := by
    unfold iblk5
    rw [View.read_apply]
    show V c main_v57 (((cfg5.win 1).blk t).view.emb (ix2 (0 : Fin 1) q)) = _
    refine congrArg (V c main_v57) (funext fun a => Fin.ext ?_)
    match a with
    | ⟨0, _⟩ => show win5_1.index t (0 : Fin 2) * 1 + 1 * 0 = 0; omega
    | ⟨1, _⟩ => show win5_1.index t (1 : Fin 2) * 2 + 1 * q.val = q.val; omega
  rw [h0, h1]

/-- Row `r` of the output array lies in the block of point `r / 5000`. -/
theorem covered (i : S1000000x2.Idx) :
    ∃ t : Fin cfg5.N, (cfg5.win 2).flush t = true ∧ i ∈ ((cfg5.win 2).blk t).view.set := by
  have hi0 : (i 0).val < 1000000 := (i 0).isLt
  have hi1 : (i 1).val < 2 := (i 1).isLt
  let t : Fin cfg5.N := ⟨(i 0).val / 5000, by show (i 0).val / 5000 < 200; omega⟩
  obtain ⟨e0, e1, e2, e3, e4, e5⟩ := index_maps t
  have htv : t.val = (i 0).val / 5000 := rfl
  refine ⟨t, flush5_2 t, ?_⟩
  show i ∈ ((View.whole main_v58).slice (win5_2.rect t)).set
  rw [View.set_slice_whole, Rect.mem_set_unit]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 2 ≤ (i 1).val ∧ (i 1).val < win5_2.index t (1 : Fin 2) * 2 + 2; omega

/-- After the region the output array is the whole-array sum of the two input arrays as the region found them. -/
theorem value (c : Dev nD) : (dat5 V c).arrAt 2 cfg5.N = Cert.ReferenceIdeal.Gcn.biased2 (F := F) (V c main_v56) (V c main_v57) :=
  (dat5 V c).arrAt_eq_of_cover 2 (Cert.ReferenceIdeal.Gcn.biased2 (F := F) (V c main_v56) (V c main_v57)) (fun t _ => written_back V c t) covered

end Cert.KernelIdeal.RowPlus2

end
-- ==== Proof.Fold.lean ====
/-
  The idealized kernel's result as a function of its six arguments.

  @main's buffer contents at the thirteen segment boundaries are a fold from the launch memory.  Walking the fold:
  the host operations before the first region compute the edges' two ends (with a self loop per node) and the
  column of edge weights; the first region leaves the product of the node features and the first weight matrix
  (a 5000-row block at a time); the host gathers it at the source ends; the second region scales the gathered rows
  by the weight column; the host sums them at the target ends; the third region adds the bias row and takes the
  maximum with zero — the hidden features.  The fourth to sixth regions and the host operations between them do the
  same at width 2 without the maximum.  A buffer that a segment does not write keeps its contents through it, so the
  ends, the weight column and the arguments are carried forward to where they are read.  Two reshapes of the kernel
  program — the edge weights to a column, a bias to a row — are the broadcasts the stage functions use.
  The last region's output buffer therefore ends holding the network's output at the launch contents of the arguments.
-/
import proofs.«102995_j13469017440589_2_alg».proof.Proof.Gen.KernelIdeal.Frame
import proofs.«102995_j13469017440589_2_alg».proof.Proof.Stages
import proofs.«102995_j13469017440589_2_alg».proof.Proof.LibUnitAxisCast
import proofs.«102995_j13469017440589_2_alg».proof.Proof.Product8
import proofs.«102995_j13469017440589_2_alg».proof.Proof.Scaled8
import proofs.«102995_j13469017440589_2_alg».proof.Proof.RowPlusRelu8
import proofs.«102995_j13469017440589_2_alg».proof.Proof.Product2
import proofs.«102995_j13469017440589_2_alg».proof.Proof.Scaled2
import proofs.«102995_j13469017440589_2_alg».proof.Proof.RowPlus2
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a host stretch writes holds after the stretch what it held before. -/
macro "not_written" : tactic =>
  `(tactic| exact StableHlo.after_of_forall_not_mem _ _ (List.forall_iff_forall_mem.mp (by
      simp only [hostOps0, hostOps0_1, hostOps0_2, hostOps1, hostOps2, hostOps4, hostOps5, List.flatten_cons, List.flatten_nil,
        List.append_nil, List.cons_append, List.nil_append, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

/-! ## The arguments are carried forward unchanged -/

theorem x0 : W0 m ρ c (Proc.devRef .tc main_arg0) = (m ((c : Thread nD τ).loc main_arg0)) := rfl
theorem x1 : W1 m ρ c (Proc.devRef .tc main_arg0) = (m ((c : Thread nD τ).loc main_arg0)) :=
  (show W1 m ρ c (Proc.devRef .tc main_arg0) = W0 m ρ c (Proc.devRef .tc main_arg0) by not_written).trans (x0 m ρ c)
theorem x2 : W2 m ρ c (Proc.devRef .tc main_arg0) = (m ((c : Thread nD τ).loc main_arg0)) :=
  (show W2 m ρ c (Proc.devRef .tc main_arg0) = W1 m ρ c (Proc.devRef .tc main_arg0) by not_written).trans (x1 m ρ c)
theorem x3 : W3 m ρ c (Proc.devRef .tc main_arg0) = (m ((c : Thread nD τ).loc main_arg0)) :=
  (show W3 m ρ c (Proc.devRef .tc main_arg0) = W2 m ρ c (Proc.devRef .tc main_arg0) by not_written).trans (x2 m ρ c)
theorem wa0 : W0 m ρ c (Proc.devRef .tc main_arg2) = (m ((c : Thread nD τ).loc main_arg2)) := rfl
theorem wa1 : W1 m ρ c (Proc.devRef .tc main_arg2) = (m ((c : Thread nD τ).loc main_arg2)) :=
  (show W1 m ρ c (Proc.devRef .tc main_arg2) = W0 m ρ c (Proc.devRef .tc main_arg2) by not_written).trans (wa0 m ρ c)
theorem wa2 : W2 m ρ c (Proc.devRef .tc main_arg2) = (m ((c : Thread nD τ).loc main_arg2)) :=
  (show W2 m ρ c (Proc.devRef .tc main_arg2) = W1 m ρ c (Proc.devRef .tc main_arg2) by not_written).trans (wa1 m ρ c)
theorem wa3 : W3 m ρ c (Proc.devRef .tc main_arg2) = (m ((c : Thread nD τ).loc main_arg2)) :=
  (show W3 m ρ c (Proc.devRef .tc main_arg2) = W2 m ρ c (Proc.devRef .tc main_arg2) by not_written).trans (wa2 m ρ c)
theorem ba0 : W0 m ρ c (Proc.devRef .tc main_arg3) = (m ((c : Thread nD τ).loc main_arg3)) := rfl
theorem ba1 : W1 m ρ c (Proc.devRef .tc main_arg3) = (m ((c : Thread nD τ).loc main_arg3)) :=
  (show W1 m ρ c (Proc.devRef .tc main_arg3) = W0 m ρ c (Proc.devRef .tc main_arg3) by not_written).trans (ba0 m ρ c)
theorem ba2 : W2 m ρ c (Proc.devRef .tc main_arg3) = (m ((c : Thread nD τ).loc main_arg3)) :=
  (show W2 m ρ c (Proc.devRef .tc main_arg3) = W1 m ρ c (Proc.devRef .tc main_arg3) by not_written).trans (ba1 m ρ c)
theorem ba3 : W3 m ρ c (Proc.devRef .tc main_arg3) = (m ((c : Thread nD τ).loc main_arg3)) :=
  (show W3 m ρ c (Proc.devRef .tc main_arg3) = W2 m ρ c (Proc.devRef .tc main_arg3) by not_written).trans (ba2 m ρ c)
theorem ba4 : W4 m ρ c (Proc.devRef .tc main_arg3) = (m ((c : Thread nD τ).loc main_arg3)) :=
  (W4_of_ne m ρ c main_arg3 (by decide)).trans (ba3 m ρ c)
theorem ba5 : W5 m ρ c (Proc.devRef .tc main_arg3) = (m ((c : Thread nD τ).loc main_arg3)) :=
  (show W5 m ρ c (Proc.devRef .tc main_arg3) = W4 m ρ c (Proc.devRef .tc main_arg3) by not_written).trans (ba4 m ρ c)
theorem ba6 : W6 m ρ c (Proc.devRef .tc main_arg3) = (m ((c : Thread nD τ).loc main_arg3)) :=
  (W6_of_ne m ρ c main_arg3 (by decide)).trans (ba5 m ρ c)
theorem wb0 : W0 m ρ c (Proc.devRef .tc main_arg4) = (m ((c : Thread nD τ).loc main_arg4)) := rfl
theorem wb1 : W1 m ρ c (Proc.devRef .tc main_arg4) = (m ((c : Thread nD τ).loc main_arg4)) :=
  (show W1 m ρ c (Proc.devRef .tc main_arg4) = W0 m ρ c (Proc.devRef .tc main_arg4) by not_written).trans (wb0 m ρ c)
theorem wb2 : W2 m ρ c (Proc.devRef .tc main_arg4) = (m ((c : Thread nD τ).loc main_arg4)) :=
  (show W2 m ρ c (Proc.devRef .tc main_arg4) = W1 m ρ c (Proc.devRef .tc main_arg4) by not_written).trans (wb1 m ρ c)
theorem wb3 : W3 m ρ c (Proc.devRef .tc main_arg4) = (m ((c : Thread nD τ).loc main_arg4)) :=
  (show W3 m ρ c (Proc.devRef .tc main_arg4) = W2 m ρ c (Proc.devRef .tc main_arg4) by not_written).trans (wb2 m ρ c)
theorem wb4 : W4 m ρ c (Proc.devRef .tc main_arg4) = (m ((c : Thread nD τ).loc main_arg4)) :=
  (W4_of_ne m ρ c main_arg4 (by decide)).trans (wb3 m ρ c)
theorem wb5 : W5 m ρ c (Proc.devRef .tc main_arg4) = (m ((c : Thread nD τ).loc main_arg4)) :=
  (show W5 m ρ c (Proc.devRef .tc main_arg4) = W4 m ρ c (Proc.devRef .tc main_arg4) by not_written).trans (wb4 m ρ c)
theorem wb6 : W6 m ρ c (Proc.devRef .tc main_arg4) = (m ((c : Thread nD τ).loc main_arg4)) :=
  (W6_of_ne m ρ c main_arg4 (by decide)).trans (wb5 m ρ c)
theorem wb7 : W7 m ρ c (Proc.devRef .tc main_arg4) = (m ((c : Thread nD τ).loc main_arg4)) :=
  (show W7 m ρ c (Proc.devRef .tc main_arg4) = W6 m ρ c (Proc.devRef .tc main_arg4) by not_written).trans (wb6 m ρ c)
theorem wb8 : W8 m ρ c (Proc.devRef .tc main_arg4) = (m ((c : Thread nD τ).loc main_arg4)) :=
  (W8_of_ne m ρ c main_arg4 (by decide)).trans (wb7 m ρ c)
theorem bb0 : W0 m ρ c (Proc.devRef .tc main_arg5) = (m ((c : Thread nD τ).loc main_arg5)) := rfl
theorem bb1 : W1 m ρ c (Proc.devRef .tc main_arg5) = (m ((c : Thread nD τ).loc main_arg5)) :=
  (show W1 m ρ c (Proc.devRef .tc main_arg5) = W0 m ρ c (Proc.devRef .tc main_arg5) by not_written).trans (bb0 m ρ c)
theorem bb2 : W2 m ρ c (Proc.devRef .tc main_arg5) = (m ((c : Thread nD τ).loc main_arg5)) :=
  (show W2 m ρ c (Proc.devRef .tc main_arg5) = W1 m ρ c (Proc.devRef .tc main_arg5) by not_written).trans (bb1 m ρ c)
theorem bb3 : W3 m ρ c (Proc.devRef .tc main_arg5) = (m ((c : Thread nD τ).loc main_arg5)) :=
  (show W3 m ρ c (Proc.devRef .tc main_arg5) = W2 m ρ c (Proc.devRef .tc main_arg5) by not_written).trans (bb2 m ρ c)
theorem bb4 : W4 m ρ c (Proc.devRef .tc main_arg5) = (m ((c : Thread nD τ).loc main_arg5)) :=
  (W4_of_ne m ρ c main_arg5 (by decide)).trans (bb3 m ρ c)
theorem bb5 : W5 m ρ c (Proc.devRef .tc main_arg5) = (m ((c : Thread nD τ).loc main_arg5)) :=
  (show W5 m ρ c (Proc.devRef .tc main_arg5) = W4 m ρ c (Proc.devRef .tc main_arg5) by not_written).trans (bb4 m ρ c)
theorem bb6 : W6 m ρ c (Proc.devRef .tc main_arg5) = (m ((c : Thread nD τ).loc main_arg5)) :=
  (W6_of_ne m ρ c main_arg5 (by decide)).trans (bb5 m ρ c)
theorem bb7 : W7 m ρ c (Proc.devRef .tc main_arg5) = (m ((c : Thread nD τ).loc main_arg5)) :=
  (show W7 m ρ c (Proc.devRef .tc main_arg5) = W6 m ρ c (Proc.devRef .tc main_arg5) by not_written).trans (bb6 m ρ c)
theorem bb8 : W8 m ρ c (Proc.devRef .tc main_arg5) = (m ((c : Thread nD τ).loc main_arg5)) :=
  (W8_of_ne m ρ c main_arg5 (by decide)).trans (bb7 m ρ c)
theorem bb9 : W9 m ρ c (Proc.devRef .tc main_arg5) = (m ((c : Thread nD τ).loc main_arg5)) :=
  (W9_of_ne m ρ c main_arg5 (by decide)).trans (bb8 m ρ c)
theorem bb10 : W10 m ρ c (Proc.devRef .tc main_arg5) = (m ((c : Thread nD τ).loc main_arg5)) :=
  (show W10 m ρ c (Proc.devRef .tc main_arg5) = W9 m ρ c (Proc.devRef .tc main_arg5) by not_written).trans (bb9 m ρ c)
theorem bb11 : W11 m ρ c (Proc.devRef .tc main_arg5) = (m ((c : Thread nD τ).loc main_arg5)) :=
  (W11_of_ne m ρ c main_arg5 (by decide)).trans (bb10 m ρ c)

/-! ## Before the first region: the edges' ends and the column of edge weights -/

set_option maxHeartbeats 4000000 in
/-- The source ends, as the host operations before the first region leave them. -/
theorem src3 : W3 m ρ c (Proc.devRef .tc main_v3) = (Cert.ReferenceIdeal.Gcn.sources (F := Ideal) (m ((c : Thread nD τ).loc main_arg1))) := by
  show StableHlo.after hostOps0_2 (StableHlo.after hostOps0_1 (StableHlo.after hostOps0 (W0 m ρ c))) (Proc.devRef .tc main_v3) = _
  after_results_simp <;> rfl

set_option maxHeartbeats 4000000 in
/-- The target ends, as the host operations before the first region leave them. -/
theorem dst3 : W3 m ρ c (Proc.devRef .tc main_v6) = (Cert.ReferenceIdeal.Gcn.targets (F := Ideal) (m ((c : Thread nD τ).loc main_arg1))) := by
  show StableHlo.after hostOps0_2 (StableHlo.after hostOps0_1 (StableHlo.after hostOps0 (W0 m ρ c))) (Proc.devRef .tc main_v6) = _
  after_results_simp <;> rfl

/-- An edge's weight from a given vector of node weights: the product of the weights of its two ends. -/
def edgeWeightOf (nw : FVec Ideal Cert.ReferenceIdeal.S1000000 .f32)
    (src dst : (⟨Cert.ReferenceIdeal.S11000000, .i32⟩ : BufTy).Contents (Elt Ideal)) : FVec Ideal Cert.ReferenceIdeal.S11000000 .f32 :=
  mulf (F := Ideal) (Host.gather Cert.ReferenceIdeal.gather_S1000000_S11000000x1_S11000000_n_0_n_n_0_1_1 nw (broadcastInDim Cert.ReferenceIdeal.S11000000x1 ![0] Cert.ReferenceIdeal.Gen.bcast_S11000000_S11000000x1_0 (Cert.ReferenceIdeal.Gcn.wrapped (F := Ideal) src)))
    (Host.gather Cert.ReferenceIdeal.gather_S1000000_S11000000x1_S11000000_n_0_n_n_0_1_1 nw (broadcastInDim Cert.ReferenceIdeal.S11000000x1 ![0] Cert.ReferenceIdeal.Gen.bcast_S11000000_S11000000x1_0 (Cert.ReferenceIdeal.Gcn.wrapped (F := Ideal) dst)))

/-- With the node weights of the target ends this is the edge weight. -/
theorem edgeWeightOf_nodeWeight (src dst : (⟨Cert.ReferenceIdeal.S11000000, .i32⟩ : BufTy).Contents (Elt Ideal)) :
    edgeWeightOf (Cert.ReferenceIdeal.Gcn.nodeWeight (F := Ideal) dst) src dst = Cert.ReferenceIdeal.Gcn.edgeWeight (F := Ideal) src dst := rfl

/-- After the first stretch of host operations: the two ends. -/
theorem src1 : W1 m ρ c (Proc.devRef .tc main_v3) = (Cert.ReferenceIdeal.Gcn.sources (F := Ideal) (m ((c : Thread nD τ).loc main_arg1))) := by
  show StableHlo.after hostOps0 (W0 m ρ c) (Proc.devRef .tc main_v3) = _
  after_results_simp <;> rfl
theorem dst1 : W1 m ρ c (Proc.devRef .tc main_v6) = (Cert.ReferenceIdeal.Gcn.targets (F := Ideal) (m ((c : Thread nD τ).loc main_arg1))) := by
  show StableHlo.after hostOps0 (W0 m ρ c) (Proc.devRef .tc main_v6) = _
  after_results_simp <;> rfl

/-- After the first stretch: where the degree is positive, its reciprocal square root, and the zero that fills the rest. -/
theorem positive1 : W1 m ρ c (Proc.devRef .tc main_v12) = cmpf (F := Ideal) .ogt (Cert.ReferenceIdeal.Gcn.degree (F := Ideal) (Cert.ReferenceIdeal.Gcn.targets (F := Ideal) (m ((c : Thread nD τ).loc main_arg1)))) (broadcastInDim Cert.ReferenceIdeal.S1000000 ![] Cert.ReferenceIdeal.Gen.bcast_S_S1000000 (constant (F := Ideal) Cert.ReferenceIdeal.S_ .f32 0x00000000#32)) := by
  show StableHlo.after hostOps0 (W0 m ρ c) (Proc.devRef .tc main_v12) = _
  unfold Cert.ReferenceIdeal.Gcn.degree Cert.ReferenceIdeal.Gcn.targets
  after_results_simp <;> rfl
theorem rsqrt1 : W1 m ρ c (Proc.devRef .tc main_v13) = Host.rsqrt (F := Ideal) (φ := .f32) ((Cert.ReferenceIdeal.Gcn.degree (F := Ideal) (Cert.ReferenceIdeal.Gcn.targets (F := Ideal) (m ((c : Thread nD τ).loc main_arg1)))) : FVec Ideal Cert.ReferenceIdeal.S1000000 .f32) := by
  show StableHlo.after hostOps0 (W0 m ρ c) (Proc.devRef .tc main_v13) = _
  unfold Cert.ReferenceIdeal.Gcn.degree Cert.ReferenceIdeal.Gcn.targets
  after_results_simp <;> rfl
theorem zero1 : W1 m ρ c (Proc.devRef .tc main_cst_2) = constant (F := Ideal) Cert.ReferenceIdeal.S_ .f32 0x00000000#32 := by
  show StableHlo.after hostOps0 (W0 m ρ c) (Proc.devRef .tc main_cst_2) = _
  after_results_simp <;> rfl

set_option maxHeartbeats 4000000 in
/-- After the second stretch (the select): the node weights. -/
theorem nodeWeight2 : W2 m ρ c (Proc.devRef .tc main_v14) = Cert.ReferenceIdeal.Gcn.nodeWeight (F := Ideal) (Cert.ReferenceIdeal.Gcn.targets (F := Ideal) (m ((c : Thread nD τ).loc main_arg1))) := by
  have h : W2 m ρ c (Proc.devRef .tc main_v14) = select (W1 m ρ c (Proc.devRef .tc main_v12)) (W1 m ρ c (Proc.devRef .tc main_v13))
      (broadcastInDim Cert.ReferenceIdeal.S1000000 ![] Cert.ReferenceIdeal.Gen.bcast_S_S1000000 (id (W1 m ρ c (Proc.devRef .tc main_cst_2)))) := by
    show StableHlo.after hostOps0_1 (W1 m ρ c) (Proc.devRef .tc main_v14) = _
    generalize W1 m ρ c = V1
    after_results_simp <;> rfl
  rw [h, positive1, rsqrt1, zero1]
  rfl
theorem src2 : W2 m ρ c (Proc.devRef .tc main_v3) = (Cert.ReferenceIdeal.Gcn.sources (F := Ideal) (m ((c : Thread nD τ).loc main_arg1))) :=
  (show W2 m ρ c (Proc.devRef .tc main_v3) = W1 m ρ c (Proc.devRef .tc main_v3) by not_written).trans (src1 m ρ c)
theorem dst2 : W2 m ρ c (Proc.devRef .tc main_v6) = (Cert.ReferenceIdeal.Gcn.targets (F := Ideal) (m ((c : Thread nD τ).loc main_arg1))) :=
  (show W2 m ρ c (Proc.devRef .tc main_v6) = W1 m ρ c (Proc.devRef .tc main_v6) by not_written).trans (dst1 m ρ c)

set_option maxHeartbeats 4000000 in
/-- After the third stretch: the edge weights reshaped to a column. -/
theorem col3_reshaped : W3 m ρ c (Proc.devRef .tc main_v30)
    = shapeCast S11000000x1 (Cert.ReferenceIdeal.Gcn.edgeWeight (F := Ideal) (Cert.ReferenceIdeal.Gcn.sources (F := Ideal) (m ((c : Thread nD τ).loc main_arg1))) (Cert.ReferenceIdeal.Gcn.targets (F := Ideal) (m ((c : Thread nD τ).loc main_arg1)))) shapeCasts_S11000000_S11000000x1 := by
  have h : W3 m ρ c (Proc.devRef .tc main_v30) = shapeCast S11000000x1
      (edgeWeightOf (W2 m ρ c (Proc.devRef .tc main_v14)) (W2 m ρ c (Proc.devRef .tc main_v3)) (W2 m ρ c (Proc.devRef .tc main_v6))) shapeCasts_S11000000_S11000000x1 := by
    show StableHlo.after hostOps0_2 (W2 m ρ c) (Proc.devRef .tc main_v30) = _
    generalize W2 m ρ c = V2
    unfold edgeWeightOf Cert.ReferenceIdeal.Gcn.wrapped
    after_results_simp <;> rfl
  rw [h, nodeWeight2, src2, dst2, edgeWeightOf_nodeWeight]

/-- The reshaped edge weights are the weight column. -/
theorem col3 : W3 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (col3_reshaped m ρ c).trans
    (Cert.Lib.UnitAxisCast.shapeCast_column 11000000 (Cert.ReferenceIdeal.Gcn.edgeWeight (F := Ideal) (Cert.ReferenceIdeal.Gcn.sources (F := Ideal) (m ((c : Thread nD τ).loc main_arg1))) (Cert.ReferenceIdeal.Gcn.targets (F := Ideal) (m ((c : Thread nD τ).loc main_arg1)))) shapeCasts_S11000000_S11000000x1
      Cert.ReferenceIdeal.Gen.bcast_S11000000_S11000000x1_0)

theorem src4 : W4 m ρ c (Proc.devRef .tc main_v3) = (Cert.ReferenceIdeal.Gcn.sources (F := Ideal) (m ((c : Thread nD τ).loc main_arg1))) :=
  (W4_of_ne m ρ c main_v3 (by decide)).trans (src3 m ρ c)
theorem src5 : W5 m ρ c (Proc.devRef .tc main_v3) = (Cert.ReferenceIdeal.Gcn.sources (F := Ideal) (m ((c : Thread nD τ).loc main_arg1))) :=
  (show W5 m ρ c (Proc.devRef .tc main_v3) = W4 m ρ c (Proc.devRef .tc main_v3) by not_written).trans (src4 m ρ c)
theorem src6 : W6 m ρ c (Proc.devRef .tc main_v3) = (Cert.ReferenceIdeal.Gcn.sources (F := Ideal) (m ((c : Thread nD τ).loc main_arg1))) :=
  (W6_of_ne m ρ c main_v3 (by decide)).trans (src5 m ρ c)
theorem src7 : W7 m ρ c (Proc.devRef .tc main_v3) = (Cert.ReferenceIdeal.Gcn.sources (F := Ideal) (m ((c : Thread nD τ).loc main_arg1))) :=
  (show W7 m ρ c (Proc.devRef .tc main_v3) = W6 m ρ c (Proc.devRef .tc main_v3) by not_written).trans (src6 m ρ c)
theorem src8 : W8 m ρ c (Proc.devRef .tc main_v3) = (Cert.ReferenceIdeal.Gcn.sources (F := Ideal) (m ((c : Thread nD τ).loc main_arg1))) :=
  (W8_of_ne m ρ c main_v3 (by decide)).trans (src7 m ρ c)
theorem src9 : W9 m ρ c (Proc.devRef .tc main_v3) = (Cert.ReferenceIdeal.Gcn.sources (F := Ideal) (m ((c : Thread nD τ).loc main_arg1))) :=
  (W9_of_ne m ρ c main_v3 (by decide)).trans (src8 m ρ c)
theorem dst4 : W4 m ρ c (Proc.devRef .tc main_v6) = (Cert.ReferenceIdeal.Gcn.targets (F := Ideal) (m ((c : Thread nD τ).loc main_arg1))) :=
  (W4_of_ne m ρ c main_v6 (by decide)).trans (dst3 m ρ c)
theorem dst5 : W5 m ρ c (Proc.devRef .tc main_v6) = (Cert.ReferenceIdeal.Gcn.targets (F := Ideal) (m ((c : Thread nD τ).loc main_arg1))) :=
  (show W5 m ρ c (Proc.devRef .tc main_v6) = W4 m ρ c (Proc.devRef .tc main_v6) by not_written).trans (dst4 m ρ c)
theorem dst6 : W6 m ρ c (Proc.devRef .tc main_v6) = (Cert.ReferenceIdeal.Gcn.targets (F := Ideal) (m ((c : Thread nD τ).loc main_arg1))) :=
  (W6_of_ne m ρ c main_v6 (by decide)).trans (dst5 m ρ c)
theorem dst7 : W7 m ρ c (Proc.devRef .tc main_v6) = (Cert.ReferenceIdeal.Gcn.targets (F := Ideal) (m ((c : Thread nD τ).loc main_arg1))) :=
  (show W7 m ρ c (Proc.devRef .tc main_v6) = W6 m ρ c (Proc.devRef .tc main_v6) by not_written).trans (dst6 m ρ c)
theorem dst8 : W8 m ρ c (Proc.devRef .tc main_v6) = (Cert.ReferenceIdeal.Gcn.targets (F := Ideal) (m ((c : Thread nD τ).loc main_arg1))) :=
  (W8_of_ne m ρ c main_v6 (by decide)).trans (dst7 m ρ c)
theorem dst9 : W9 m ρ c (Proc.devRef .tc main_v6) = (Cert.ReferenceIdeal.Gcn.targets (F := Ideal) (m ((c : Thread nD τ).loc main_arg1))) :=
  (W9_of_ne m ρ c main_v6 (by decide)).trans (dst8 m ρ c)
theorem dst10 : W10 m ρ c (Proc.devRef .tc main_v6) = (Cert.ReferenceIdeal.Gcn.targets (F := Ideal) (m ((c : Thread nD τ).loc main_arg1))) :=
  (show W10 m ρ c (Proc.devRef .tc main_v6) = W9 m ρ c (Proc.devRef .tc main_v6) by not_written).trans (dst9 m ρ c)
theorem dst11 : W11 m ρ c (Proc.devRef .tc main_v6) = (Cert.ReferenceIdeal.Gcn.targets (F := Ideal) (m ((c : Thread nD τ).loc main_arg1))) :=
  (W11_of_ne m ρ c main_v6 (by decide)).trans (dst10 m ρ c)
theorem col4 : W4 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (W4_of_ne m ρ c main_v30 (by decide)).trans (col3 m ρ c)
theorem col5 : W5 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (show W5 m ρ c (Proc.devRef .tc main_v30) = W4 m ρ c (Proc.devRef .tc main_v30) by not_written).trans (col4 m ρ c)
theorem col6 : W6 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (W6_arr m ρ c 1).trans (((dat1 (V5 m ρ) c).arrAt_in 1 rfl _).trans ((A_eq1 (V5 m ρ) c 1).trans (col5 m ρ c)))
theorem col7 : W7 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (show W7 m ρ c (Proc.devRef .tc main_v30) = W6 m ρ c (Proc.devRef .tc main_v30) by not_written).trans (col6 m ρ c)
theorem col8 : W8 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (W8_of_ne m ρ c main_v30 (by decide)).trans (col7 m ρ c)
theorem col9 : W9 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (W9_of_ne m ρ c main_v30 (by decide)).trans (col8 m ρ c)
theorem col10 : W10 m ρ c (Proc.devRef .tc main_v30) = (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (show W10 m ρ c (Proc.devRef .tc main_v30) = W9 m ρ c (Proc.devRef .tc main_v30) by not_written).trans (col9 m ρ c)

/-! ## The first layer -/

/-- The first region leaves the product of the node features and the first weight matrix. -/
theorem xw4 : W4 m ρ c (Proc.devRef .tc main_v31) = (Cert.ReferenceIdeal.Gcn.product8 (F := Ideal) (m ((c : Thread nD τ).loc main_arg0)) (m ((c : Thread nD τ).loc main_arg2))) :=
  (W4_arr m ρ c 2).trans ((Cert.KernelIdeal.Product8.value (V3 m ρ) c).trans
    (congrArg₂ (Cert.ReferenceIdeal.Gcn.product8 (F := Ideal)) (x3 m ρ c) (wa3 m ρ c)))

/-- The host gathers the product at the edges' source ends. -/
theorem gathered5 : W5 m ρ c (Proc.devRef .tc main_v38) = Cert.ReferenceIdeal.Gcn.atSources8 (F := Ideal) (Cert.ReferenceIdeal.Gcn.product8 (F := Ideal) (m ((c : Thread nD τ).loc main_arg0)) (m ((c : Thread nD τ).loc main_arg2))) (Cert.ReferenceIdeal.Gcn.sources (F := Ideal) (m ((c : Thread nD τ).loc main_arg1))) := by
  have h : W5 m ρ c (Proc.devRef .tc main_v38) = Cert.ReferenceIdeal.Gcn.atSources8 (F := Ideal) (W4 m ρ c (Proc.devRef .tc main_v31)) (W4 m ρ c (Proc.devRef .tc main_v3)) := by
    show StableHlo.after hostOps1 (W4 m ρ c) (Proc.devRef .tc main_v38) = _
    after_results <;> rfl
  rw [h, xw4, src4]

/-- The second region scales the gathered rows by the weight column. -/
theorem scaled6 : W6 m ρ c (Proc.devRef .tc main_v39) = Cert.ReferenceIdeal.Gcn.scaled8 (F := Ideal) (Cert.ReferenceIdeal.Gcn.atSources8 (F := Ideal) (Cert.ReferenceIdeal.Gcn.product8 (F := Ideal) (m ((c : Thread nD τ).loc main_arg0)) (m ((c : Thread nD τ).loc main_arg2))) (Cert.ReferenceIdeal.Gcn.sources (F := Ideal) (m ((c : Thread nD τ).loc main_arg1)))) (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (W6_arr m ρ c 2).trans ((Cert.KernelIdeal.Scaled8.value (V5 m ρ) c).trans
    (congrArg₂ (Cert.ReferenceIdeal.Gcn.scaled8 (F := Ideal)) (gathered5 m ρ c) (col5 m ρ c)))

/-- The host sums the scaled rows at the edges' target ends. -/
theorem summed7 : W7 m ρ c (Proc.devRef .tc main_v42)
    = Cert.ReferenceIdeal.Gcn.atTargets8 (F := Ideal) (Cert.ReferenceIdeal.Gcn.scaled8 (F := Ideal) (Cert.ReferenceIdeal.Gcn.atSources8 (F := Ideal) (Cert.ReferenceIdeal.Gcn.product8 (F := Ideal) (m ((c : Thread nD τ).loc main_arg0)) (m ((c : Thread nD τ).loc main_arg2))) (Cert.ReferenceIdeal.Gcn.sources (F := Ideal) (m ((c : Thread nD τ).loc main_arg1)))) (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1))))) (Cert.ReferenceIdeal.Gcn.targets (F := Ideal) (m ((c : Thread nD τ).loc main_arg1))) := by
  have h : W7 m ρ c (Proc.devRef .tc main_v42) = Cert.ReferenceIdeal.Gcn.atTargets8 (F := Ideal) (W6 m ρ c (Proc.devRef .tc main_v39)) (W6 m ρ c (Proc.devRef .tc main_v6)) := by
    show StableHlo.after hostOps2 (W6 m ρ c) (Proc.devRef .tc main_v42) = _
    after_results <;> rfl
  rw [h, scaled6, dst6]

/-- The first bias reshaped to a row is the bias broadcast to a row. -/
theorem row7 : W7 m ρ c (Proc.devRef .tc main_v43) = broadcastInDim Cert.ReferenceIdeal.S1x8 ![1] Cert.ReferenceIdeal.Gen.bcast_S8_S1x8_1 (m ((c : Thread nD τ).loc main_arg3)) := by
  have h : W7 m ρ c (Proc.devRef .tc main_v43) = shapeCast S1x8 (W6 m ρ c (Proc.devRef .tc main_arg3)) shapeCasts_S8_S1x8 := by
    show StableHlo.after hostOps2 (W6 m ρ c) (Proc.devRef .tc main_v43) = _
    after_results <;> rfl
  rw [h, ba6]
  exact Cert.Lib.UnitAxisCast.shapeCast_row 8 (m ((c : Thread nD τ).loc main_arg3)) shapeCasts_S8_S1x8 Cert.ReferenceIdeal.Gen.bcast_S8_S1x8_1

/-- The third region adds the bias row and takes the maximum with zero: the hidden features. -/
theorem hidden8 : W8 m ρ c (Proc.devRef .tc main_v44) = (Cert.ReferenceIdeal.Gcn.hidden (F := Ideal) (m ((c : Thread nD τ).loc main_arg0)) (m ((c : Thread nD τ).loc main_arg1)) (m ((c : Thread nD τ).loc main_arg2)) (m ((c : Thread nD τ).loc main_arg3))) :=
  (W8_arr m ρ c 2).trans ((Cert.KernelIdeal.RowPlusRelu8.value (V7 m ρ) c).trans
    (congrArg₂ (Cert.ReferenceIdeal.Gcn.biasedRelu8 (F := Ideal)) (summed7 m ρ c) (row7 m ρ c)))

/-! ## The second layer -/

/-- The fourth region leaves the product of the hidden features and the second weight matrix. -/
theorem hw9 : W9 m ρ c (Proc.devRef .tc main_v45) = (Cert.ReferenceIdeal.Gcn.product2 (F := Ideal) (Cert.ReferenceIdeal.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) :=
  (W9_arr m ρ c 2).trans ((Cert.KernelIdeal.Product2.value (V8 m ρ) c).trans
    (congrArg₂ (Cert.ReferenceIdeal.Gcn.product2 (F := Ideal)) (hidden8 m ρ c) (wb8 m ρ c)))

/-- The host gathers the product at the edges' source ends. -/
theorem gathered10 : W10 m ρ c (Proc.devRef .tc main_v52) = Cert.ReferenceIdeal.Gcn.atSources2 (F := Ideal) (Cert.ReferenceIdeal.Gcn.product2 (F := Ideal) (Cert.ReferenceIdeal.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) (Cert.ReferenceIdeal.Gcn.sources (F := Ideal) (m ((c : Thread nD τ).loc main_arg1))) := by
  have h : W10 m ρ c (Proc.devRef .tc main_v52) = Cert.ReferenceIdeal.Gcn.atSources2 (F := Ideal) (W9 m ρ c (Proc.devRef .tc main_v45)) (W9 m ρ c (Proc.devRef .tc main_v3)) := by
    show StableHlo.after hostOps4 (W9 m ρ c) (Proc.devRef .tc main_v52) = _
    after_results <;> rfl
  rw [h, hw9, src9]

/-- The fifth region scales the gathered rows by the weight column. -/
theorem scaled11 : W11 m ρ c (Proc.devRef .tc main_v53) = Cert.ReferenceIdeal.Gcn.scaled2 (F := Ideal) (Cert.ReferenceIdeal.Gcn.atSources2 (F := Ideal) (Cert.ReferenceIdeal.Gcn.product2 (F := Ideal) (Cert.ReferenceIdeal.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) (Cert.ReferenceIdeal.Gcn.sources (F := Ideal) (m ((c : Thread nD τ).loc main_arg1)))) (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1)))) :=
  (W11_arr m ρ c 2).trans ((Cert.KernelIdeal.Scaled2.value (V10 m ρ) c).trans
    (congrArg₂ (Cert.ReferenceIdeal.Gcn.scaled2 (F := Ideal)) (gathered10 m ρ c) (col10 m ρ c)))

/-- The host sums the scaled rows at the edges' target ends. -/
theorem summed12 : W12 m ρ c (Proc.devRef .tc main_v56)
    = Cert.ReferenceIdeal.Gcn.atTargets2 (F := Ideal) (Cert.ReferenceIdeal.Gcn.scaled2 (F := Ideal) (Cert.ReferenceIdeal.Gcn.atSources2 (F := Ideal) (Cert.ReferenceIdeal.Gcn.product2 (F := Ideal) (Cert.ReferenceIdeal.Gcn.hidden (F := Ideal) (m ((c : Thread nD τ).loc main_arg0)) (m ((c : Thread nD τ).loc main_arg1)) (m ((c : Thread nD τ).loc main_arg2)) (m ((c : Thread nD τ).loc main_arg3))) (m ((c : Thread nD τ).loc main_arg4))) (Cert.ReferenceIdeal.Gcn.sources (F := Ideal) (m ((c : Thread nD τ).loc main_arg1)))) (Cert.ReferenceIdeal.Gcn.weightColumn (F := Ideal) (Cert.ReferenceIdeal.Gcn.sources (F := Ideal) (m ((c : Thread nD τ).loc main_arg1))) (Cert.ReferenceIdeal.Gcn.targets (F := Ideal) (m ((c : Thread nD τ).loc main_arg1))))) (Cert.ReferenceIdeal.Gcn.targets (F := Ideal) (m ((c : Thread nD τ).loc main_arg1))) := by
  have h : W12 m ρ c (Proc.devRef .tc main_v56) = Cert.ReferenceIdeal.Gcn.atTargets2 (F := Ideal) (W11 m ρ c (Proc.devRef .tc main_v53)) (W11 m ρ c (Proc.devRef .tc main_v6)) := by
    show StableHlo.after hostOps5 (W11 m ρ c) (Proc.devRef .tc main_v56) = _
    after_results <;> rfl
  rw [h, scaled11, dst11]

/-- The second bias reshaped to a row is the bias broadcast to a row. -/
theorem row12 : W12 m ρ c (Proc.devRef .tc main_v57) = broadcastInDim Cert.ReferenceIdeal.S1x2 ![1] Cert.ReferenceIdeal.Gen.bcast_S2_S1x2_1 (m ((c : Thread nD τ).loc main_arg5)) := by
  have h : W12 m ρ c (Proc.devRef .tc main_v57) = shapeCast S1x2 (W11 m ρ c (Proc.devRef .tc main_arg5)) shapeCasts_S2_S1x2 := by
    show StableHlo.after hostOps5 (W11 m ρ c) (Proc.devRef .tc main_v57) = _
    after_results <;> rfl
  rw [h, bb11]
  exact Cert.Lib.UnitAxisCast.shapeCast_row 2 (m ((c : Thread nD τ).loc main_arg5)) shapeCasts_S2_S1x2 Cert.ReferenceIdeal.Gen.bcast_S2_S1x2_1

/-- The last region adds the bias row: the result buffer ends holding the network's output. -/
theorem result : W13 m ρ c (Proc.devRef .tc main_v58)
    = Cert.ReferenceIdeal.Gcn.output (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W13_arr m ρ c 2).trans ((Cert.KernelIdeal.RowPlus2.value (V12 m ρ) c).trans
    (congrArg₂ (Cert.ReferenceIdeal.Gcn.biased2 (F := Ideal)) (summed12 m ρ c) (row12 m ρ c)))

end Cert.KernelIdeal.Fold

end
-- ==== Proof.lean ====
/-
  A two-layer graph convolution on a graph of 1000000 nodes and 10000000 listed edges (plus a self loop per node),
  computed two ways: by a program whose dense steps — the two products with the weight matrices, the two scalings of
  the edge messages by the edge weights, the two bias additions (the first followed by a maximum with zero) — are
  kernel regions walking their arrays in blocks of 5000 rows, with the gathers at the source ends and the sums at the
  target ends as host operations between them; and by a reference made of host operations only.

  Over the exact extended reals the two compute one function of the six arguments (`Gcn.output`, Proof/Stages.lean):
  * each kernel region's output array is the corresponding whole-array host operation of its input arrays, because
    its blocks tile the array and the block's value at an entry is that operation's value at the entry — a change of
    float format is the identity, a matrix-unit product into zero and a host matrix product are the same finite sum
    (Proof/Product8, Scaled8, RowPlusRelu8, Product2, Scaled2, RowPlus2);
  * the kernel program's buffer contents are followed from the launch memory through its thirteen segments to the
    result buffer (Proof/Fold.lean), the gathers and scatter-adds being the same operations on both sides and never
    opened; the kernel program computes the edge weights once where the reference computes them per layer, from the
    same arguments; its two reshapes are the reference's broadcasts (Proof/LibUnitAxisCast.lean);
  * the reference's composed term is the same function by unfolding (Proof/RefIsGcn.lean).
  No law used needs finiteness of the inputs, so the precondition is never opened.  The ideal pass rewrote nothing, so
  the kernel's idealization is its own text read at the exact instance.
-/
import proofs.«102995_j13469017440589_2_alg».proof.Defs
import proofs.«102995_j13469017440589_2_alg».proof.Proof.Gen.Kernel
import proofs.«102995_j13469017440589_2_alg».proof.Proof.Gen.Kernel.Frame
import proofs.«102995_j13469017440589_2_alg».proof.Proof.Gen.KernelIdeal
import proofs.«102995_j13469017440589_2_alg».proof.Proof.Gen.KernelIdeal.Frame
import proofs.«102995_j13469017440589_2_alg».proof.Proof.Gen.ReferenceIdeal
import proofs.«102995_j13469017440589_2_alg».proof.Proof.Gen.Pre_finite_inputs
import proofs.«102995_j13469017440589_2_alg».proof.Proof.RefRunP
import proofs.«102995_j13469017440589_2_alg».proof.Proof.RefIsGcn
import proofs.«102995_j13469017440589_2_alg».proof.Proof.ResultRun
import proofs.«102995_j13469017440589_2_alg».proof.Proof.Fold
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- So does its reading at the exact instance. -/
theorem frame_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories agreeing on the six arguments both programs end with the network's output of those arguments in
    their result buffers. -/
theorem algebraic : Cert.algebraic_KernelIdeal_ReferenceIdeal := by
  intro m ρ m' ρ' _ hagree
  refine ⟨fun c => Cert.ReferenceIdeal.Gcn.output (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Gcn.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
